-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_arg7 : FVec F S64x32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  main_v33

def fn {F : FTy → Type} [FloatOps F] (main_arg0 : FVec F S100000x64 .f32) (main_arg1 : IVec S2x1000000 32) (main_arg2 : FVec F S64x64 .f32) (main_arg3 : FVec F S64 .f32) (main_arg4 : FVec F S64x64 .f32) (main_arg5 : FVec F S64x32 .f32) (main_arg6 : FVec F S32 .f32) (main_arg7 : FVec F S64x32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩
abbrev S100000x32 : Shape := ⟨2, ![100000, 32]⟩
abbrev S5000x64 : Shape := ⟨2, ![5000, 64]⟩
abbrev S5000x1 : Shape := ⟨2, ![5000, 1]⟩
abbrev S5000x32 : Shape := ⟨2, ![5000, 32]⟩
abbrev S1000000x32 : Shape := ⟨2, ![1000000, 32]⟩
abbrev S1x32 : Shape := ⟨2, ![1, 32]⟩

abbrev nBuf : Space → Nat
  | .hbm => 56
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .f32⟩
  | .hbm, ⟨13, _⟩ => ⟨S1000000, .f32⟩
  | .hbm, ⟨14, _⟩ => ⟨S_, .f32⟩
  | .hbm, ⟨15, _⟩ => ⟨S100000, .f32⟩
  | .hbm, ⟨16, _⟩ => ⟨S1000000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000x64, .f32⟩
  | .hbm, ⟨34, _⟩ => ⟨S_, .f32⟩
  | .hbm, ⟨35, _⟩ => ⟨S100000x64, .f32⟩
  | .hbm, ⟨36, _⟩ => ⟨S1000000x1, .i32⟩
  | .hbm, ⟨37, _⟩ => ⟨S100000x64, .f32⟩
  | .hbm, ⟨38, _⟩ => ⟨S1x64, .f32⟩
  | .hbm, ⟨39, _⟩ => ⟨S100000x32, .f32⟩
  | .hbm, ⟨40, _⟩ => ⟨S100000x32, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000x32, .f32⟩
  | .hbm, ⟨50, _⟩ => ⟨S_, .f32⟩
  | .hbm, ⟨51, _⟩ => ⟨S100000x32, .f32⟩
  | .hbm, ⟨52, _⟩ => ⟨S1000000x1, .i32⟩
  | .hbm, ⟨53, _⟩ => ⟨S100000x32, .f32⟩
  | .hbm, ⟨54, _⟩ => ⟨S1x32, .f32⟩
  | .hbm, ⟨55, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S64x32, .f32⟩
  | .local _ .vmem, ⟨10, _⟩ => ⟨S64x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x1, .f32⟩
  | .local _ .vmem, ⟨18, _⟩ => ⟨S5000x1, .f32⟩
  | .local _ .vmem, ⟨19, _⟩ => ⟨S5000x32, .f32⟩
  | .local _ .vmem, ⟨20, _⟩ => ⟨S5000x32, .f32⟩
  | .local _ .vmem, ⟨21, _⟩ => ⟨S1x32, .f32⟩
  | .local _ .vmem, ⟨22, _⟩ => ⟨S5000x32, .f32⟩
  | .local _ .vmem, ⟨23, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  gather_S100000x32_S1000000x1_S1000000x32_1_0_n_n_0_1_132_wf : GatherDims.WF S100000x32 S1000000x1 S1000000x32 [1] [0] [] [0] [] 1 ![1, 32]
  scatter_S100000x32_S1000000x1_S1000000x32_1_0_0_1_wf : ScatterDims.WF S100000x32 S1000000x1 S1000000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .f32 = 32 ∨ (Rect.block (s := S64x32) S64x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x32.size a ≤ S100000x32.size a
  hwx0_8 : ∀ i : grid0.Coords, EltTy.bits .f32 = 32 ∨ (Rect.block (s := S100000x32) S5000x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x32.size a ≤ S100000x32.size a
  hwx0_9 : ∀ i : grid0.Coords, EltTy.bits .f32 = 32 ∨ (Rect.block (s := S100000x32) S5000x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24_0) S5000x32.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v24_1) S5000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v34) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24_1) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S_, .f32⟩
  | .hbm, ⟨22, _⟩ => ⟨S100000x64, .f32⟩
  | .hbm, ⟨23, _⟩ => ⟨S1000000x1, .i32⟩
  | .hbm, ⟨24, _⟩ => ⟨S100000x64, .f32⟩
  | .hbm, ⟨25, _⟩ => ⟨S_, .f32⟩
  | .hbm, ⟨26, _⟩ => ⟨S1000000, .f32⟩
  | .hbm, ⟨27, _⟩ => ⟨S_, .f32⟩
  | .hbm, ⟨28, _⟩ => ⟨S100000, .f32⟩
  | .hbm, ⟨29, _⟩ => ⟨S1000000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x64, .f32⟩
  | .hbm, ⟨55, _⟩ => ⟨S_, .f32⟩
  | .hbm, ⟨56, _⟩ => ⟨S100000x64, .f32⟩
  | .hbm, ⟨57, _⟩ => ⟨S1000000x1, .i32⟩
  | .hbm, ⟨58, _⟩ => ⟨S100000x64, .f32⟩
  | .hbm, ⟨59, _⟩ => ⟨S_, .f32⟩
  | .hbm, ⟨60, _⟩ => ⟨S1000000, .f32⟩
  | .hbm, ⟨61, _⟩ => ⟨S_, .f32⟩
  | .hbm, ⟨62, _⟩ => ⟨S100000, .f32⟩
  | .hbm, ⟨63, _⟩ => ⟨S1000000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x32, .f32⟩
  | .hbm, ⟨72, _⟩ => ⟨S1x32, .f32⟩
  | .hbm, ⟨73, _⟩ => ⟨S100000x32, .f32⟩
  | .hbm, ⟨74, _⟩ => ⟨S100000x32, .f32⟩
  | .hbm, ⟨75, _⟩ => ⟨S100000x32, .f32⟩
  | .hbm, ⟨76, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.Spec.lean ====
/-
  The mathematics of a two-layer mean-aggregating graph convolution, stated once, over the literal shapes,
  as whole-array functions of the argument arrays at the ideal instance (floats are extended reals).

  A graph on 100000 nodes is given by 1000000 edges: row 0 of the edge array holds each edge's source word,
  row 1 its destination word. An edge `e` LANDS on node `n` when its destination word, read signed, is `n`
  (an edge whose destination is outside the node range lands nowhere); it READS node `srcNode e`: its source
  word, a negative one wrapped by the node count, read signed and clamped into the node range.

  * `aggArr X` sums, per node, the rows of `X` read by the edges landing on it;
  * `degc n` is the number of edges landing on `n`, at least one; `invArr` its reciprocal as a column;
  * `hidArr` is one layer's hidden row: the aggregated row scaled per node, times a weight matrix, plus a
    bias row, plus the node's own row times a second weight matrix, clamped below at zero;
  * `projArr h W` multiplies hidden rows by a weight matrix; `combArr` scales an aggregate per node and adds
    a bias row and a second array.

  The two programs compose these differently: one aggregates the hidden rows and then projects the mean
  (`GR`), the other projects the hidden rows first and aggregates the projections (`GK`).
-/
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Sage

open Idealize.ShloMosaic Idealize.ShloMosaic.ValueIdx

/-! ## Edges -/

/-- The edge array: row 0 the source words, row 1 the destination words. -/
abbrev EdgeArr : Type := IVec (⟨2, ![2, 1000000]⟩ : Shape) 32

/-- Edge `e`'s source word, a negative one wrapped by the node count. -/
def srcWord (ei : EdgeArr) (e : Fin 1000000) : BitVec 32 :=
  Scalar.select (IntOp.cmpi .slt (ei (ix2 0 e)) 0#32) (IntOp.addi (ei (ix2 0 e)) 100000#32) (ei (ix2 0 e))

/-- The node edge `e` reads: its wrapped source word, read signed and clamped into the node range. -/
def srcNode (ei : EdgeArr) (e : Fin 1000000) : Fin 100000 :=
  ⟨min (srcWord ei e).toInt.toNat (100000 - 1), by omega⟩

/-- The edges landing on node `n`: those whose destination word, read signed, is `n`. -/
def inEdges (ei : EdgeArr) (n : Fin 100000) : Finset (Fin 1000000) :=
  Finset.univ.filter (fun e : Fin 1000000 => (ei (ix2 1 e)).toInt = (n.val : ℤ))

/-- The number of edges landing on `n`, as the host computes it: a sum of ones from zero. -/
def deg (ei : EdgeArr) (n : Fin 100000) : EReal := 0 + ∑ _e ∈ inEdges ei n, (1 : EReal)

/-- The degree clamped below at one. -/
def degc (ei : EdgeArr) (n : Fin 100000) : EReal := max (deg ei n) 1

/-- The row and the column of an index of a two-axis array, as numbers of the literal ranges. -/
abbrev row {a b : ℕ} (i : (⟨2, ![a, b]⟩ : Shape).Idx) : Fin a := ⟨(i 0).val, idx2_lt0 i⟩
abbrev col {a b : ℕ} (i : (⟨2, ![a, b]⟩ : Shape).Idx) : Fin b := ⟨(i 1).val, idx2_lt1 i⟩

/-! ## Whole-array stages -/

/-- Per node, the sum from zero of the rows of `X` read by the edges landing on it. -/
def aggArr {C : ℕ} (X : (⟨2, ![100000, C]⟩ : Shape).Idx → EReal) (ei : EdgeArr) :
    (⟨2, ![100000, C]⟩ : Shape).Idx → EReal :=
  fun i => 0 + ∑ e ∈ inEdges ei (row i), X (ix2 (srcNode ei e) (col i))

/-- The clamped degree as a column. -/
def degArr (ei : EdgeArr) : (⟨2, ![100000, 1]⟩ : Shape).Idx → EReal := fun i => degc ei (row i)

/-- The reciprocal of the clamped degree as a column. -/
def invArr (ei : EdgeArr) : (⟨2, ![100000, 1]⟩ : Shape).Idx → EReal := fun i => Ideal.div 1 (degc ei (row i))

/-- A vector as a single row. -/
def rowArr {C : ℕ} (b : (⟨1, ![C]⟩ : Shape).Idx → EReal) : (⟨2, ![1, C]⟩ : Shape).Idx → EReal :=
  fun i => b (ix1 (col i))

/-- One layer's hidden rows from the per-node mean `mean`: mean · Wl + bias + own row · Wr, clamped below at zero. -/
def hidOf (mean : Fin 100000 → Fin 64 → EReal) (x : (⟨2, ![100000, 64]⟩ : Shape).Idx → EReal)
    (Wl : (⟨2, ![64, 64]⟩ : Shape).Idx → EReal) (br : (⟨2, ![1, 64]⟩ : Shape).Idx → EReal)
    (Wr : (⟨2, ![64, 64]⟩ : Shape).Idx → EReal) (n : Fin 100000) (c : Fin 64) : EReal :=
  max (((∑ k : Fin 64, mean n k * Wl (ix2 k c)) + br (ix2 0 c)) + ∑ k : Fin 64, x (ix2 n k) * Wr (ix2 k c)) 0

/-- The hidden rows when the mean is the aggregate TIMES a per-node column. -/
def hidMul (msg : (⟨2, ![100000, 64]⟩ : Shape).Idx → EReal) (inv : (⟨2, ![100000, 1]⟩ : Shape).Idx → EReal)
    (x : (⟨2, ![100000, 64]⟩ : Shape).Idx → EReal) (Wl : (⟨2, ![64, 64]⟩ : Shape).Idx → EReal)
    (br : (⟨2, ![1, 64]⟩ : Shape).Idx → EReal) (Wr : (⟨2, ![64, 64]⟩ : Shape).Idx → EReal) :
    Fin 100000 → Fin 64 → EReal :=
  hidOf (fun n k => msg (ix2 n k) * inv (ix2 n 0)) x Wl br Wr

/-- The hidden rows when the mean is the aggregate DIVIDED by a per-node column. -/
def hidDiv (msg : (⟨2, ![100000, 64]⟩ : Shape).Idx → EReal) (d : (⟨2, ![100000, 1]⟩ : Shape).Idx → EReal)
    (x : (⟨2, ![100000, 64]⟩ : Shape).Idx → EReal) (Wl : (⟨2, ![64, 64]⟩ : Shape).Idx → EReal)
    (br : (⟨2, ![1, 64]⟩ : Shape).Idx → EReal) (Wr : (⟨2, ![64, 64]⟩ : Shape).Idx → EReal) :
    Fin 100000 → Fin 64 → EReal :=
  hidOf (fun n k => Ideal.div (msg (ix2 n k)) (d (ix2 n 0))) x Wl br Wr

/-- Rows `h` as an array. -/
def arrOf {C : ℕ} (h : Fin 100000 → Fin C → EReal) : (⟨2, ![100000, C]⟩ : Shape).Idx → EReal :=
  fun i => h (row i) (col i)

/-- Rows `h` times a weight matrix. -/
def projArr (h : Fin 100000 → Fin 64 → EReal) (W : (⟨2, ![64, 32]⟩ : Shape).Idx → EReal) :
    (⟨2, ![100000, 32]⟩ : Shape).Idx → EReal :=
  fun i => ∑ k : Fin 64, h (row i) k * W (ix2 k (col i))

/-- An aggregate scaled per node, plus a bias row, plus a second array. -/
def combArr (msg : (⟨2, ![100000, 32]⟩ : Shape).Idx → EReal) (inv : (⟨2, ![100000, 1]⟩ : Shape).Idx → EReal)
    (r : (⟨2, ![100000, 32]⟩ : Shape).Idx → EReal) (br : (⟨2, ![1, 32]⟩ : Shape).Idx → EReal) :
    (⟨2, ![100000, 32]⟩ : Shape).Idx → EReal :=
  fun i => ((msg i * inv (ix2 (row i) 0)) + br (ix2 0 (col i))) + r i

/-! ## The two compositions -/

section
variable (x : (⟨2, ![100000, 64]⟩ : Shape).Idx → EReal) (ei : EdgeArr)
  (W1l : (⟨2, ![64, 64]⟩ : Shape).Idx → EReal) (b1 : (⟨1, ![64]⟩ : Shape).Idx → EReal)
  (W1r : (⟨2, ![64, 64]⟩ : Shape).Idx → EReal) (W2l : (⟨2, ![64, 32]⟩ : Shape).Idx → EReal)
  (b2 : (⟨1, ![32]⟩ : Shape).Idx → EReal) (W2r : (⟨2, ![64, 32]⟩ : Shape).Idx → EReal)

/-- The hidden rows of the program that scales by the reciprocal degree. -/
def hK : Fin 100000 → Fin 64 → EReal := hidMul (aggArr x ei) (invArr ei) x W1l (rowArr b1) W1r

/-- The hidden rows of the program that divides by the degree. -/
def hR : Fin 100000 → Fin 64 → EReal := hidDiv (aggArr x ei) (degArr ei) x W1l (rowArr b1) W1r

/-- Project first, aggregate the projections, scale, add the bias and the own-row projection. -/
def GK : (⟨2, ![100000, 32]⟩ : Shape).Idx → EReal :=
  combArr (aggArr (projArr (hK x ei W1l b1 W1r) W2l) ei) (invArr ei) (projArr (hK x ei W1l b1 W1r) W2r) (rowArr b2)

/-- Aggregate the hidden rows, divide by the degree, project the mean, add the bias and the own-row projection. -/
def GR : (⟨2, ![100000, 32]⟩ : Shape).Idx → EReal :=
  fun i => ((∑ k : Fin 64, Ideal.div (aggArr (arrOf (hR x ei W1l b1 W1r)) ei (ix2 (row i) k)) (degArr ei (ix2 (row i) 0))
      * W2l (ix2 k (col i))) + rowArr b2 (ix2 0 (col i)))
    + projArr (hR x ei W1l b1 W1r) W2r i

end

/-! ## The two float literals the programs use -/

theorem ofBits_one_f32 : Ideal.ofBits .f32 0x3F800000#32 = 1 := by
  simp [Ideal.ofBits, Ideal.ieee]
  rw [← EReal.coe_mul, ← EReal.coe_one, EReal.coe_eq_coe_iff]
  norm_num

end Sage

end
-- ==== Proof.LibLossAlgebra.lean ====
/-
  General lemmas over the extended reals and the reals that the comparison of the two loss expressions uses:
  the coercion of a finite sum, the contraction of a vector with a row of the identity matrix, and a sum over
  m·n indices cut into m blocks of n consecutive indices.
-/
import Mathlib.Data.EReal.Operations
import Mathlib.Data.EReal.Inv
import Mathlib.Algebra.BigOperators.Fin
import Mathlib.Algebra.BigOperators.Group.Finset.Basic
import Mathlib.Logic.Equiv.Fin.Basic
import Mathlib.Tactic.Ring
import Mathlib.Tactic.Linarith

noncomputable section

namespace Cert.LibLossAlgebra

open scoped BigOperators

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Contracting a vector with row k of the identity matrix reads entry k: no finiteness is needed, since
    x · 1 = x and x · 0 = 0 for every extended real x. -/
theorem sum_mul_ite {n : ℕ} (x : Fin n → EReal) (k : Fin n) :
    ∑ i, x i * (if i = k then (1 : EReal) else 0) = x k := by
  rw [Finset.sum_eq_single k]
  · rw [if_pos rfl, mul_one]
  · intro i _ hik; rw [if_neg hik, mul_zero]
  · intro h; exact absurd (Finset.mem_univ k) h

/-- The same with the factors swapped. -/
theorem sum_ite_mul {n : ℕ} (x : Fin n → EReal) (k : Fin n) :
    ∑ i, (if i = k then (1 : EReal) else 0) * x i = x k := by
  rw [Finset.sum_eq_single k]
  · rw [if_pos rfl, one_mul]
  · intro i _ hik; rw [if_neg hik, zero_mul]
  · intro h; exact absurd (Finset.mem_univ k) h

/-- The same two with the test written the other way round. -/
theorem sum_mul_ite' {n : ℕ} (x : Fin n → EReal) (k : Fin n) :
    ∑ i, x i * (if k = i then (1 : EReal) else 0) = x k := by
  rw [Finset.sum_eq_single k]
  · rw [if_pos rfl, mul_one]
  · intro i _ hik; rw [if_neg (Ne.symm hik), mul_zero]
  · intro h; exact absurd (Finset.mem_univ k) h

theorem sum_ite_mul' {n : ℕ} (x : Fin n → EReal) (k : Fin n) :
    ∑ i, (if k = i then (1 : EReal) else 0) * x i = x k := by
  rw [Finset.sum_eq_single k]
  · rw [if_pos rfl, one_mul]
  · intro i _ hik; rw [if_neg (Ne.symm hik), zero_mul]
  · intro h; exact absurd (Finset.mem_univ k) h

/-- Index i·n + r of block i is below m·n. -/
theorem block_lt {m n N : ℕ} (h : m * n = N) (i : Fin m) (r : Fin n) : i.val * n + r.val < N := by
  have hi := i.isLt
  have hr := r.isLt
  calc i.val * n + r.val < i.val * n + n := by omega
    _ = (i.val + 1) * n := by ring
    _ ≤ m * n := Nat.mul_le_mul_right n hi
    _ = N := h

/-- A sum over m·n indices is the sum, over the m blocks, of the sums over each block's n consecutive indices. -/
theorem sum_blocks {M : Type*} [AddCommMonoid M] {m n N : ℕ} (h : m * n = N) (f : Fin N → M) :
    ∑ b, f b = ∑ i : Fin m, ∑ r : Fin n, f ⟨i.val * n + r.val, block_lt h i r⟩ := by
  subst h
  rw [← Fintype.sum_prod_type' (fun (i : Fin m) (r : Fin n) => f ⟨i.val * n + r.val, block_lt rfl i r⟩)]
  refine (Fintype.sum_equiv finProdFinEquiv _ _ (fun x => congrArg f (Fin.ext ?_))).symm
  show x.1.val * n + x.2.val = x.2.val + n * x.1.val
  rw [Nat.mul_comm, Nat.add_comm]

end Cert.LibLossAlgebra

end
-- ==== Proof.LibGcnSum.lean ====
/-
  Finite-sum algebra on the extended reals behind a graph-convolution normalisation identity.

  A scatter-add over real edges and self-loops, each term weighted by a product of two
  normalisation coefficients, equals the target node's coefficient times the sum of the
  source-weighted terms. The coefficient `c` is only assumed to satisfy `0 ≤ c` and `c ≠ ⊤`:
  that is exactly what makes multiplication by `c` distribute over sums of arbitrary
  extended reals (no finiteness of the summands is needed).
-/
import Mathlib.Data.EReal.Operations
import Mathlib.Algebra.BigOperators.Fin
import Mathlib.Algebra.BigOperators.Group.Finset.Basic
import Idealize.ShloMosaic.PureOps.Ideal

namespace LibGcnSum

open Finset

/-- Multiplication by a nonnegative, non-`⊤` extended real distributes over a finite sum:
    `c * ∑ f = ∑ c * f`. The summands are arbitrary extended reals. -/
theorem mul_sum_of_nonneg_ne_top {ι : Type*} (s : Finset ι) (f : ι → EReal) {c : EReal}
    (h0 : 0 ≤ c) (ht : c ≠ ⊤) : c * ∑ e ∈ s, f e = ∑ e ∈ s, c * f e := by
  classical
  induction s using Finset.induction_on with
  | empty => simp
  | insert a s ha ih =>
    rw [Finset.sum_insert ha, Finset.sum_insert ha,
      EReal.left_distrib_of_nonneg_of_ne_top h0 ht, ih]

/-- The normalisation identity at one node. With `c` the node's own coefficient
    (`0 ≤ c`, `c ≠ ⊤`), the sum over incoming edges of `a e * (p e * c)` plus the
    self-loop term `z * (c * c)` equals `c` times (the sum of `a e * p e` plus `z * c`). -/
theorem gcn_term_identity (c : EReal) (h0 : 0 ≤ c) (ht : c ≠ ⊤) {ι : Type*} (s : Finset ι)
    (a p : ι → EReal) (z : EReal) :
    (∑ e ∈ s, a e * (p e * c)) + z * (c * c) = c * ((∑ e ∈ s, a e * p e) + z * c) := by
  rw [EReal.left_distrib_of_nonneg_of_ne_top h0 ht, mul_sum_of_nonneg_ne_top s _ h0 ht]
  congr 1
  · refine Finset.sum_congr rfl (fun e _ => ?_)
    rw [← mul_assoc, mul_comm c (a e * p e)]
  · rw [mul_left_comm]

/-- A filtered sum over `Fin (E + N)` splits into the filtered sum over the first `E`
    indices (`Fin.castAdd`) plus the filtered sum over the last `N` indices (`Fin.natAdd`). -/
theorem sum_filter_fin_append {E N : ℕ} (P : Fin (E + N) → Prop) [DecidablePred P]
    (f : Fin (E + N) → EReal) :
    ∑ k ∈ Finset.univ.filter P, f k
      = (∑ e ∈ (Finset.univ : Finset (Fin E)).filter (fun e => P (Fin.castAdd N e)),
            f (Fin.castAdd N e))
        + ∑ r ∈ (Finset.univ : Finset (Fin N)).filter (fun r => P (Fin.natAdd E r)),
            f (Fin.natAdd E r) := by
  rw [Finset.sum_filter, Fin.sum_univ_add, Finset.sum_filter, Finset.sum_filter]

/-- The same splitting when the index type is `Fin T` with `E + N = T`: the first `E`
    indices are reached through `Fin.cast h ∘ Fin.castAdd N`, the last `N` through
    `Fin.cast h ∘ Fin.natAdd E`. Nothing is computed about `T`. -/
theorem sum_filter_fin_append_cast {E N T : ℕ} (h : E + N = T) (P : Fin T → Prop)
    [DecidablePred P] (f : Fin T → EReal) :
    ∑ k ∈ Finset.univ.filter P, f k
      = (∑ e ∈ (Finset.univ : Finset (Fin E)).filter
              (fun e => P (Fin.cast h (Fin.castAdd N e))),
            f (Fin.cast h (Fin.castAdd N e)))
        + ∑ r ∈ (Finset.univ : Finset (Fin N)).filter
              (fun r => P (Fin.cast h (Fin.natAdd E r))),
            f (Fin.cast h (Fin.natAdd E r)) := by
  subst h
  exact sum_filter_fin_append P f

/-- Summing over the indices of `Fin N` whose value equals that of `i` (compared as
    integers) picks out the single term at `i`. -/
theorem sum_filter_val_eq {N : ℕ} (i : Fin N) (g : Fin N → EReal) :
    ∑ r ∈ Finset.univ.filter (fun r : Fin N => (r.val : ℤ) = (i.val : ℤ)), g r = g i := by
  have : Finset.univ.filter (fun r : Fin N => (r.val : ℤ) = (i.val : ℤ)) = {i} := by
    ext r
    simp only [Finset.mem_filter, Finset.mem_univ, true_and, Finset.mem_singleton]
    constructor
    · intro hr
      exact Fin.ext (by exact_mod_cast hr)
    · intro hr
      rw [hr]
  rw [this, Finset.sum_singleton]

/-- Summing the constant `1` over a finite set counts it: the sum is the real number
    `card s`, seen as an extended real. -/
theorem sum_one_eq_card {ι : Type*} (s : Finset ι) :
    (∑ _e ∈ s, (1 : EReal)) = (((s.card : ℕ) : ℝ) : EReal) := by
  classical
  induction s using Finset.induction_on with
  | empty => simp
  | insert a s ha ih =>
    rw [Finset.sum_insert ha, ih, Finset.card_insert_of_notMem ha, Nat.cast_add, Nat.cast_one,
      EReal.coe_add, EReal.coe_one, add_comm]

/-- A count is nonnegative. -/
theorem sum_one_nonneg {ι : Type*} (s : Finset ι) : (0 : EReal) ≤ ∑ _e ∈ s, (1 : EReal) := by
  rw [sum_one_eq_card]
  exact EReal.coe_nonneg.mpr (Nat.cast_nonneg _)

/-- A count is finite. -/
theorem sum_one_ne_top {ι : Type*} (s : Finset ι) : (∑ _e ∈ s, (1 : EReal)) ≠ ⊤ := by
  rw [sum_one_eq_card]
  exact EReal.coe_ne_top _

/-- `0 +` a count is the same real number `card s`. -/
theorem zero_add_sum_one_eq_card {ι : Type*} (s : Finset ι) :
    (0 : EReal) + ∑ _e ∈ s, (1 : EReal) = (((s.card : ℕ) : ℝ) : EReal) := by
  rw [zero_add, sum_one_eq_card]

/-- The degree count with self-loops. Over `Fin (E + N)` (real edges first, then one
    self-loop per node), if among the last `N` indices exactly `r = i` satisfies `P`, then
    the number of indices satisfying `P` is the number of real edges satisfying `P`, plus one. -/
theorem degree_count_append {E N : ℕ} (P : Fin (E + N) → Prop) [DecidablePred P] (i : Fin N)
    (hP : ∀ r : Fin N, P (Fin.natAdd E r) ↔ r = i) :
    (0 : EReal) + ∑ _k ∈ Finset.univ.filter P, (1 : EReal)
      = ((0 : EReal) + ∑ _e ∈ (Finset.univ : Finset (Fin E)).filter
            (fun e => P (Fin.castAdd N e)), (1 : EReal)) + 1 := by
  have hlast : (Finset.univ : Finset (Fin N)).filter (fun r => P (Fin.natAdd E r)) = {i} := by
    ext r
    simp only [Finset.mem_filter, Finset.mem_univ, true_and, Finset.mem_singleton]
    exact hP r
  rw [sum_filter_fin_append P (fun _ => (1 : EReal)), hlast, Finset.sum_singleton, add_assoc]

/-- The same degree count when the index type is `Fin T` with `E + N = T`. -/
theorem degree_count_append_cast {E N T : ℕ} (h : E + N = T) (P : Fin T → Prop)
    [DecidablePred P] (i : Fin N)
    (hP : ∀ r : Fin N, P (Fin.cast h (Fin.natAdd E r)) ↔ r = i) :
    (0 : EReal) + ∑ _k ∈ Finset.univ.filter P, (1 : EReal)
      = ((0 : EReal) + ∑ _e ∈ (Finset.univ : Finset (Fin E)).filter
            (fun e => P (Fin.cast h (Fin.castAdd N e))), (1 : EReal)) + 1 := by
  subst h
  exact degree_count_append P i hP

/-- The degree with self-loops is a real number that is at least one: the count over the
    real edges, as a real, plus one. -/
theorem degree_count_append_eq_coe {E N : ℕ} (P : Fin (E + N) → Prop) [DecidablePred P]
    (i : Fin N) (hP : ∀ r : Fin N, P (Fin.natAdd E r) ↔ r = i) :
    (0 : EReal) + ∑ _k ∈ Finset.univ.filter P, (1 : EReal)
      = (((((Finset.univ : Finset (Fin E)).filter
            (fun e => P (Fin.castAdd N e))).card : ℕ) : ℝ) : EReal) + 1 := by
  rw [degree_count_append P i hP, zero_add_sum_one_eq_card]

open Idealize.ShloMosaic in
/-- On a positive real, the reciprocal square root is the real `(√r)⁻¹`. -/
theorem rsqrt_coe_of_pos {r : ℝ} (hr : 0 < r) :
    Ideal.rsqrt (r : EReal) = (((Real.sqrt r)⁻¹ : ℝ) : EReal) := by
  rw [Ideal.rsqrt_coe, if_neg (not_lt.mpr hr.le), if_neg hr.ne']

open Idealize.ShloMosaic in
/-- The reciprocal square root of a real `r ≥ 1` is nonnegative. -/
theorem rsqrt_coe_nonneg {r : ℝ} (hr : 1 ≤ r) : (0 : EReal) ≤ Ideal.rsqrt (r : EReal) := by
  rw [rsqrt_coe_of_pos (lt_of_lt_of_le one_pos hr)]
  exact EReal.coe_nonneg.mpr (inv_nonneg.mpr (Real.sqrt_nonneg r))

open Idealize.ShloMosaic in
/-- The reciprocal square root of a real `r ≥ 1` is not `⊤`. -/
theorem rsqrt_coe_ne_top {r : ℝ} (hr : 1 ≤ r) : Ideal.rsqrt (r : EReal) ≠ ⊤ := by
  rw [rsqrt_coe_of_pos (lt_of_lt_of_le one_pos hr)]
  exact EReal.coe_ne_top _

/-- A real `r ≥ 1` is positive as an extended real. -/
theorem coe_pos_of_one_le {r : ℝ} (hr : 1 ≤ r) : (0 : EReal) < (r : EReal) :=
  EReal.coe_pos.mpr (lt_of_lt_of_le one_pos hr)

/-- For a real `r ≥ 1`, `max r 1 = r` in the extended reals. -/
theorem max_coe_one_of_one_le {r : ℝ} (hr : 1 ≤ r) : max (r : EReal) 1 = (r : EReal) :=
  max_eq_left (by rw [← EReal.coe_one]; exact EReal.coe_le_coe_iff.mpr hr)

/-- A natural number plus one, as an extended real, is the real `n + 1`. -/
theorem natCast_add_one_eq_coe (n : ℕ) :
    (((n : ℕ) : ℝ) : EReal) + 1 = (((n : ℝ) + 1 : ℝ) : EReal) := by
  rw [EReal.coe_add, EReal.coe_one]

/-- `1 ≤ n + 1` for a natural `n`, in the reals. -/
theorem one_le_natCast_add_one (n : ℕ) : (1 : ℝ) ≤ (n : ℝ) + 1 :=
  le_add_of_nonneg_left (Nat.cast_nonneg n)

open Idealize.ShloMosaic in
/-- The reciprocal square root of `n + 1` (`n` a natural number) is nonnegative. -/
theorem rsqrt_natCast_add_one_nonneg (n : ℕ) :
    (0 : EReal) ≤ Ideal.rsqrt ((((n : ℕ) : ℝ) : EReal) + 1) := by
  rw [natCast_add_one_eq_coe]
  exact rsqrt_coe_nonneg (one_le_natCast_add_one n)

open Idealize.ShloMosaic in
/-- The reciprocal square root of `n + 1` (`n` a natural number) is not `⊤`. -/
theorem rsqrt_natCast_add_one_ne_top (n : ℕ) :
    Ideal.rsqrt ((((n : ℕ) : ℝ) : EReal) + 1) ≠ ⊤ := by
  rw [natCast_add_one_eq_coe]
  exact rsqrt_coe_ne_top (one_le_natCast_add_one n)

/-- `n + 1` (`n` a natural number) is positive as an extended real. -/
theorem natCast_add_one_pos (n : ℕ) : (0 : EReal) < (((n : ℕ) : ℝ) : EReal) + 1 := by
  rw [natCast_add_one_eq_coe]
  exact coe_pos_of_one_le (one_le_natCast_add_one n)

/-- `max (n + 1) 1 = n + 1` (`n` a natural number) in the extended reals. -/
theorem max_natCast_add_one (n : ℕ) :
    max ((((n : ℕ) : ℝ) : EReal) + 1) 1 = (((n : ℕ) : ℝ) : EReal) + 1 := by
  rw [natCast_add_one_eq_coe]
  exact max_coe_one_of_one_le (one_le_natCast_add_one n)

/-- The whole identity at one node. Over `Fin (E + N)` (real edges first, then one self-loop
    per node), let `P` select the indices landing at node `i`, with exactly the self-loop
    `r = i` selected among the last `N`. If the summand at a selected real edge `e` is
    `a e * (p e * c)` and the summand at the self-loop of `i` is `z * (c * c)`, where
    `0 ≤ c` and `c ≠ ⊤`, then the scatter-add at `i` is `c` times (the sum over the selected
    real edges of `a e * p e`, plus `z * c`). -/
theorem gcn_scatter_identity {E N : ℕ} (P : Fin (E + N) → Prop) [DecidablePred P] (i : Fin N)
    (hP : ∀ r : Fin N, P (Fin.natAdd E r) ↔ r = i)
    (c : EReal) (h0 : 0 ≤ c) (ht : c ≠ ⊤) (a p : Fin E → EReal) (z : EReal)
    (f : Fin (E + N) → EReal)
    (hf1 : ∀ e : Fin E, P (Fin.castAdd N e) → f (Fin.castAdd N e) = a e * (p e * c))
    (hf2 : f (Fin.natAdd E i) = z * (c * c)) :
    ∑ k ∈ Finset.univ.filter P, f k
      = c * ((∑ e ∈ (Finset.univ : Finset (Fin E)).filter (fun e => P (Fin.castAdd N e)),
                a e * p e) + z * c) := by
  have hlast : (Finset.univ : Finset (Fin N)).filter (fun r => P (Fin.natAdd E r)) = {i} := by
    ext r
    simp only [Finset.mem_filter, Finset.mem_univ, true_and, Finset.mem_singleton]
    exact hP r
  rw [sum_filter_fin_append P f, hlast, Finset.sum_singleton, hf2, ← gcn_term_identity c h0 ht]
  congr 1
  exact Finset.sum_congr rfl (fun e he => hf1 e (Finset.mem_filter.mp he).2)

/-- The same identity when the index type is `Fin T` with `E + N = T`. -/
theorem gcn_scatter_identity_cast {E N T : ℕ} (h : E + N = T) (P : Fin T → Prop)
    [DecidablePred P] (i : Fin N)
    (hP : ∀ r : Fin N, P (Fin.cast h (Fin.natAdd E r)) ↔ r = i)
    (c : EReal) (h0 : 0 ≤ c) (ht : c ≠ ⊤) (a p : Fin E → EReal) (z : EReal)
    (f : Fin T → EReal)
    (hf1 : ∀ e : Fin E, P (Fin.cast h (Fin.castAdd N e)) →
      f (Fin.cast h (Fin.castAdd N e)) = a e * (p e * c))
    (hf2 : f (Fin.cast h (Fin.natAdd E i)) = z * (c * c)) :
    ∑ k ∈ Finset.univ.filter P, f k
      = c * ((∑ e ∈ (Finset.univ : Finset (Fin E)).filter
                (fun e => P (Fin.cast h (Fin.castAdd N e))), a e * p e) + z * c) := by
  subst h
  exact gcn_scatter_identity P i hP c h0 ht a p z f hf1 hf2

end LibGcnSum
-- ==== Proof.Algebra.lean ====
/-
  The algebra that joins the two compositions. On the extended reals a product distributes over a sum only among
  finite values, so the identity is proved where every entry is a real number: the hidden rows are finite when the
  node features, the first layer's weights and its bias are, the clamped degree is a real number at least one, and
  then aggregating the projected rows and scaling equals projecting the aggregated, scaled rows — a finite double
  sum summed in the other order.
-/
import proofs.«116617_j42880953484118_2_alg».proof.Proof.Spec
import proofs.«116617_j42880953484118_2_alg».proof.Proof.LibLossAlgebra
import proofs.«116617_j42880953484118_2_alg».proof.Proof.LibGcnSum

noncomputable section

open scoped BigOperators

namespace Sage

open Idealize.ShloMosaic Idealize.ShloMosaic.ValueIdx

/-! ## Finite values -/

/-- An extended real that is a real number. -/
def IsReal (a : EReal) : Prop := ∃ r : ℝ, a = (r : EReal)

theorem isReal_coe (r : ℝ) : IsReal (r : EReal) := ⟨r, rfl⟩
theorem isReal_zero : IsReal 0 := ⟨0, rfl⟩
theorem isReal_one : IsReal 1 := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.max {a b : EReal} (ha : IsReal a) (hb : IsReal b) : IsReal (max a b) := by
  rcases le_total a b with h | h
  · rw [max_eq_right h]; exact hb
  · rw [max_eq_left h]; exact ha

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-! ## The clamped degree is a real number at least one -/

/-- The coercion of the larger of two reals is the larger of the coercions. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

theorem degc_real (ei : EdgeArr) (n : Fin 100000) : ∃ r : ℝ, r ≠ 0 ∧ degc ei n = (r : EReal) := by
  refine ⟨max (((inEdges ei n).card : ℕ) : ℝ) 1, ?_, ?_⟩
  · have : (1 : ℝ) ≤ max (((inEdges ei n).card : ℕ) : ℝ) 1 := le_max_right _ _
    intro h; rw [h] at this; linarith
  · unfold degc deg
    rw [LibGcnSum.zero_add_sum_one_eq_card, ← EReal.coe_one]
    exact (coe_max _ _).symm

/-- Scaling by the reciprocal of a nonzero real is dividing by it, at every extended real. -/
theorem mul_div_one (a : EReal) {r : ℝ} (hr : r ≠ 0) : a * Ideal.div 1 (r : EReal) = Ideal.div a (r : EReal) := by
  rw [Ideal.div_coe hr, Ideal.div_coe hr, one_mul]

/-! ## Indices -/

@[simp] theorem row_ix2 {a b : ℕ} (p : Fin a) (q : Fin b) : row (ix2 p q) = p := rfl
@[simp] theorem col_ix2 {a b : ℕ} (p : Fin a) (q : Fin b) : col (ix2 p q) = q := rfl

/-! ## The two hidden layers are one -/

section
variable (x : (⟨2, ![100000, 64]⟩ : Shape).Idx → EReal) (ei : EdgeArr)
  (W1l : (⟨2, ![64, 64]⟩ : Shape).Idx → EReal) (b1 : (⟨1, ![64]⟩ : Shape).Idx → EReal)
  (W1r : (⟨2, ![64, 64]⟩ : Shape).Idx → EReal) (W2l : (⟨2, ![64, 32]⟩ : Shape).Idx → EReal)
  (b2 : (⟨1, ![32]⟩ : Shape).Idx → EReal) (W2r : (⟨2, ![64, 32]⟩ : Shape).Idx → EReal)

/-- Dividing the aggregate by the clamped degree is scaling it by the reciprocal: no finiteness is needed. -/
theorem hR_eq_hK : hR x ei W1l b1 W1r = hK x ei W1l b1 W1r := by
  have hmean : (fun (n : Fin 100000) (k : Fin 64) => Ideal.div (aggArr x ei (ix2 n k)) (degArr ei (ix2 n 0)))
      = fun n k => aggArr x ei (ix2 n k) * invArr ei (ix2 n 0) := by
    funext n k
    obtain ⟨r, hr, hd⟩ := degc_real ei n
    show Ideal.div (aggArr x ei (ix2 n k)) (degc ei n) = aggArr x ei (ix2 n k) * Ideal.div 1 (degc ei n)
    rw [hd, mul_div_one _ hr]
  exact congrArg (fun mean => hidOf mean x W1l (rowArr b1) W1r) hmean

/-- The hidden rows are finite when the features, the first layer's weights and its bias are. -/
theorem hK_real (hx : ∀ i, IsReal (x i)) (hW1l : ∀ i, IsReal (W1l i)) (hb1 : ∀ i, IsReal (b1 i))
    (hW1r : ∀ i, IsReal (W1r i)) (n : Fin 100000) (c : Fin 64) : IsReal (hK x ei W1l b1 W1r n c) := by
  show IsReal (max (((∑ k : Fin 64, (aggArr x ei (ix2 n k) * invArr ei (ix2 n 0)) * W1l (ix2 k c)) + rowArr b1 (ix2 0 c))
    + ∑ k : Fin 64, x (ix2 n k) * W1r (ix2 k c)) 0)
  refine IsReal.max (IsReal.add (IsReal.add (isReal_sum _ _ fun k _ => IsReal.mul (IsReal.mul ?_ ?_) (hW1l _)) ?_)
    (isReal_sum _ _ fun k _ => IsReal.mul (hx _) (hW1r _))) isReal_zero
  · exact IsReal.add isReal_zero (isReal_sum _ _ fun e _ => hx _)
  · obtain ⟨r, hr, hd⟩ := degc_real ei n
    show IsReal (Ideal.div 1 (degc ei n))
    rw [hd, Ideal.div_coe hr, one_mul]
    exact isReal_coe _
  · exact hb1 _

end

/-! ## Summing the other way round -/

/-- Among real numbers: the sum over edges of a row's products with a weight column, scaled, is the sum over the
    row's entries of the scaled edge sums times the weights. -/
theorem swap_identity {ι : Type*} (s : Finset ι) (a : ι → Fin 64 → EReal) (w : Fin 64 → EReal) (r : ℝ) (hr : r ≠ 0)
    (ha : ∀ e k, IsReal (a e k)) (hw : ∀ k, IsReal (w k)) :
    (0 + ∑ e ∈ s, ∑ k : Fin 64, a e k * w k) * Ideal.div 1 (r : EReal)
      = ∑ k : Fin 64, Ideal.div (0 + ∑ e ∈ s, a e k) (r : EReal) * w k := by
  choose ar har using ha
  choose wr hwr using hw
  obtain rfl : a = fun e k => ((ar e k : ℝ) : EReal) := funext fun e => funext fun k => har e k
  obtain rfl : w = fun k => ((wr k : ℝ) : EReal) := funext hwr
  simp only [Ideal.div_coe hr, zero_add, one_mul]
  simp only [← EReal.coe_mul, ← Cert.LibLossAlgebra.coe_finset_sum]
  rw [EReal.coe_eq_coe_iff]
  rw [Finset.sum_comm, Finset.sum_mul]
  refine Finset.sum_congr rfl fun k _ => ?_
  rw [← Finset.sum_mul]
  ring

/-! ## The two compositions are one function -/

theorem GR_eq_GK (x : (⟨2, ![100000, 64]⟩ : Shape).Idx → EReal) (ei : EdgeArr)
    (W1l : (⟨2, ![64, 64]⟩ : Shape).Idx → EReal) (b1 : (⟨1, ![64]⟩ : Shape).Idx → EReal)
    (W1r : (⟨2, ![64, 64]⟩ : Shape).Idx → EReal) (W2l : (⟨2, ![64, 32]⟩ : Shape).Idx → EReal)
    (b2 : (⟨1, ![32]⟩ : Shape).Idx → EReal) (W2r : (⟨2, ![64, 32]⟩ : Shape).Idx → EReal)
    (hx : ∀ i, IsReal (x i)) (hW1l : ∀ i, IsReal (W1l i)) (hb1 : ∀ i, IsReal (b1 i))
    (hW1r : ∀ i, IsReal (W1r i)) (hW2l : ∀ i, IsReal (W2l i)) :
    GR x ei W1l b1 W1r W2l b2 W2r = GK x ei W1l b1 W1r W2l b2 W2r := by
  funext i
  show ((∑ k : Fin 64, Ideal.div (aggArr (arrOf (hR x ei W1l b1 W1r)) ei (ix2 (row i) k)) (degArr ei (ix2 (row i) 0))
      * W2l (ix2 k (col i))) + rowArr b2 (ix2 0 (col i))) + projArr (hR x ei W1l b1 W1r) W2r i
    = ((aggArr (projArr (hK x ei W1l b1 W1r) W2l) ei i * invArr ei (ix2 (row i) 0)) + rowArr b2 (ix2 0 (col i)))
      + projArr (hK x ei W1l b1 W1r) W2r i
  rw [hR_eq_hK]
  refine congrArg (fun t => (t + rowArr b2 (ix2 0 (col i))) + projArr (hK x ei W1l b1 W1r) W2r i) ?_
  obtain ⟨r, hr, hd⟩ := degc_real ei (row i)
  show ∑ k : Fin 64, Ideal.div (0 + ∑ e ∈ inEdges ei (row i), hK x ei W1l b1 W1r (srcNode ei e) k) (degc ei (row i))
      * W2l (ix2 k (col i))
    = (0 + ∑ e ∈ inEdges ei (row i), ∑ k : Fin 64, hK x ei W1l b1 W1r (srcNode ei e) k * W2l (ix2 k (col i)))
      * Ideal.div 1 (degc ei (row i))
  rw [hd]
  exact (swap_identity (inEdges ei (row i)) (fun e k => hK x ei W1l b1 W1r (srcNode ei e) k) (fun k => W2l (ix2 k (col i))) r hr
    (fun e k => hK_real x ei W1l b1 W1r hx hW1l hb1 hW1r _ _) (fun k => hW2l _)).symm

end Sage

end
-- ==== Proof.Finite.lean ====
/-
  What the precondition says at the ideal instance: every entry of every float argument is a real number.
  The precondition is a conjunction of seven tests "every entry's absolute value is below +infinity"; an extended real
  whose absolute value is below +infinity is neither infinity, so it is a real number.
-/
import proofs.«116617_j42880953484118_2_alg».proof.Proof.Gen.Pre_finite_inputs
import proofs.«116617_j42880953484118_2_alg».proof.Proof.Algebra
import Idealize.ShloMosaic.Lib.ReduceAll
import Idealize.ShloMosaic.Lib.Affine
import Idealize.ShloMosaic.PureOps.Ideal.Laws

noncomputable section

namespace Cert.Pre_finite_inputs.Finite

open Idealize.ShloMosaic Cert.Pre_finite_inputs

/-- The scalar shape has one index. -/
instance : Subsingleton S_.Idx := ⟨fun a b => funext fun d => d.elim0⟩

/-- The word the tests compare against denotes +infinity. -/
theorem top_word : Ideal.ofBits .f32 0x7F800000#32 = ⊤ := by simp [Ideal.ofBits, Ideal.ieee]

/-- An extended real whose absolute value is below +infinity is a real number. -/
theorem real_of_abs_lt (a : EReal)
    (h : FloatOps.cmpf (F := Ideal) (φ := .f32) .olt (FloatOps.hostAbsf (F := Ideal) (φ := .f32) a)
      (FloatOps.ofBits (F := Ideal) .f32 0x7F800000#32) = 1#1) : Sage.IsReal a := by
  rw [Ideal.cmpf_def] at h
  simp only [Ideal.ofBits_def, top_word, Ideal.hostAbsf_def, Ideal.absf_def] at h
  induction a using EReal.rec with
  | bot => exact absurd h (by simp [Ideal.cmp])
  | coe r => exact ⟨r, rfl⟩
  | top => exact absurd h (by simp [Ideal.cmp])

/-- One test of the precondition, passed, makes every entry of its array a real number. -/
theorem all_real {s : Shape} (x : FVec Ideal s .f32) (hb : S_.BroadcastsInDim s (![] : Fin 0 → Fin s.rank))
    {axes : List (Fin s.rank)} (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ValueIdx.ix0 = 1#1) (i : s.Idx) : Sage.IsReal (x i) := by
  have hi := Host.reduce_andi_all _ _ hr hu ValueIdx.ix0 h i
  refine real_of_abs_lt (x i) ?_
  rw [← hi]
  show _ = FloatOps.cmpf .olt (FloatOps.hostAbsf (x i)) (broadcastInDim s ![] hb (constant (F := Ideal) S_ .f32 0x7F800000#32) i)
  rw [broadcastInDim_apply _ hb _ i ValueIdx.ix0 (fun a => a.elim0)]
  rfl

variable [Facts]

/-- Under the precondition the node features, the first layer's two weight matrices and bias, and the second
    layer's aggregate weight matrix hold real numbers. -/
theorem reals_of_pre (x0 : FVec Ideal S100000x64 .f32) (x1 : IVec S2x1000000 32) (x2 : FVec Ideal S64x64 .f32)
    (x3 : FVec Ideal S64 .f32) (x4 : FVec Ideal S64x64 .f32) (x5 : FVec Ideal S64x32 .f32) (x6 : FVec Ideal S32 .f32)
    (x7 : FVec Ideal S64x32 .f32) (h : fn (F := Ideal) x0 x1 x2 x3 x4 x5 x6 x7 = fun _ => 1#1) :
    (∀ i, Sage.IsReal (x0 i)) ∧ (∀ i, Sage.IsReal (x2 i)) ∧ (∀ i, Sage.IsReal (x3 i)) ∧ (∀ i, Sage.IsReal (x4 i))
      ∧ (∀ i, Sage.IsReal (x5 i)) := by
  have h0 := congrFun h ValueIdx.ix0
  dsimp only [fn, fn_part1] at h0
  have e33 := (IntOp.andi_eq_one.mp h0).1
  have e28 := (IntOp.andi_eq_one.mp e33).1
  have e23 := IntOp.andi_eq_one.mp e28
  have e18 := IntOp.andi_eq_one.mp e23.1
  have e13 := IntOp.andi_eq_one.mp e18.1
  have e8 := IntOp.andi_eq_one.mp e13.1
  exact ⟨all_real x0 _ _ _ e8.1, all_real x2 _ _ _ e8.2, all_real x3 _ _ _ e13.2, all_real x4 _ _ _ e18.2,
    all_real x5 _ _ _ e23.2⟩

end Cert.Pre_finite_inputs.Finite

end
-- ==== Proof.KernelRun.lean ====
/-
  The idealized kernel's run with its result named. Every weakly fair execution of @main — host operations, the first
  pallas region, host operations, the second pallas region — terminates without a fault, the argument arrays end as
  launched, and the result array ends at the contents the last segment boundary gives it: the second region's output
  array as its pipeline leaves it.
-/
import proofs.«116617_j42880953484118_2_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run over the four segments, the final state read at the result array and at each argument array: the
    result holds the last boundary's contents `W4`, each argument what it was launched with. -/
theorem run_named : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The last boundary's contents at the result array are what the second region's pipeline leaves in its output
    window's array. -/
theorem W4_result (c : Dev nD) :
    W4 m ρ c (Proc.devRef .tc main_v36) = (dat1 (V3 m ρ) c).arrAt 4 cfg1.N :=
  W4_arr m ρ c 4

end Cert.KernelIdeal.NamedRun

end
-- ==== Proof.LibColumnLayout.lean ====
/-
  Column forms of the layout operations, read at an index: a vector of `a` entries cast to one column `[a, 1]`,
  and one column `[a, 1]` broadcast over `b` columns — the shapes a row-wise reduction kept as a column
  (a row maximum, a row sum) and a per-row bias pass through. Generic in the sizes, for any element type.
-/
import Idealize.ShloMosaic.Lib.ValueIdx
import Idealize.ShloMosaic.Lib.Pipeline.Value

namespace Cert.GatedAttn.ColumnLayout

open Idealize.ShloMosaic Idealize.ShloMosaic.ValueIdx

variable {α : Type}

/-- A vector `[a]` cast to a column `[a, 1]` reads, at `(i, u)`, the vector's entry `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`: the unit axis reads `0`,
    the row axis its own coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GatedAttn.ColumnLayout
-- ==== Proof.Region0Pay.lean ====
/-
  Region 0's body, read at an index. The body computes, per row block, one layer's hidden rows — the aggregate
  block scaled by the per-row column, times a weight matrix, plus the bias row, plus the own-row block times a
  second weight matrix, clamped below at zero — and multiplies them by one of two projection matrices. At the
  ideal instance every narrowing format change is the identity and every matrix product into the zero
  accumulator is the plain sum over the contracted axis, so each payload, read at (row p, column j), is a
  closed expression in the entries of the loaded blocks.
-/
import proofs.«116617_j42880953484118_2_alg».proof.Proof.Gen.KernelIdeal.Skeleton
import proofs.«116617_j42880953484118_2_alg».proof.Proof.LibColumnLayout
import Idealize.ShloMosaic.Lib.ValueIdx
import Idealize.ShloMosaic.Lib.ValueLayout
import Idealize.ShloMosaic.PureOps.Ideal.Laws

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx

/-! ## The two matrix products at an index -/

/-! The operand indices of the two products, coordinate by coordinate: the left operand is read at (output row,
    contracted coordinate), the right one at (contracted coordinate, output column). -/

theorem lhs64_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs64_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs64_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs64_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem lhs32_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs32_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhs32_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhs32_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- A [5000,64] block times a [64,64] matrix into the zero accumulator, at (p, c): the sum over the 64 shared
    coordinates of the products of row p's and column c's entries. -/
theorem mm64_apply (a : FVec Ideal S5000x64 .bf16) (b : FVec Ideal S64x64 .bf16) (p : Fin 5000) (c : Fin 64) :
    matmul dot_S5000x64_S64x64_S5000x64_1_0_0_1_n_n none a b (constant (F := Ideal) S5000x64 .f32 0x00000000#32) (ix2 p c)
      = ∑ k : Fin 64, a (ix2 p k) * b (ix2 k c) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p c) ((ValueIdx.contrEquiv1 dot_S5000x64_S64x64_S5000x64_1_0_0_1_n_n 64 rfl rfl).symm k) = ix2 p k := funext fun ax => Fin.ext (by
    match ax with
    | ⟨0, _⟩ => exact lhs64_0 _ _
    | ⟨1, _⟩ => exact (lhs64_1 _ _).trans hk)
  have er : dot_S5000x64_S64x64_S5000x64_1_0_0_1_n_n.rhsIdx (ix2 p c) ((ValueIdx.contrEquiv1 dot_S5000x64_S64x64_S5000x64_1_0_0_1_n_n 64 rfl rfl).symm k) = ix2 k c := funext fun ax => Fin.ext (by
    match ax with
    | ⟨0, _⟩ => exact (rhs64_0 _ _).trans hk
    | ⟨1, _⟩ => exact rhs64_1 _ _)
  rw [el, er]

/-- A [5000,64] block times a [64,32] matrix into the zero accumulator, at (p, c). -/
theorem mm32_apply (a : FVec Ideal S5000x64 .bf16) (b : FVec Ideal S64x32 .bf16) (p : Fin 5000) (c : Fin 32) :
    matmul dot_S5000x64_S64x32_S5000x32_1_0_0_1_n_n none a b (constant (F := Ideal) S5000x32 .f32 0x00000000#32) (ix2 p c)
      = ∑ k : Fin 64, a (ix2 p k) * b (ix2 k c) := by
  simp only [matmul]
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p c) ((ValueIdx.contrEquiv1 dot_S5000x64_S64x32_S5000x32_1_0_0_1_n_n 64 rfl rfl).symm k) = ix2 p k := funext fun ax => Fin.ext (by
    match ax with
    | ⟨0, _⟩ => exact lhs32_0 _ _
    | ⟨1, _⟩ => exact (lhs32_1 _ _).trans hk)
  have er : dot_S5000x64_S64x32_S5000x32_1_0_0_1_n_n.rhsIdx (ix2 p c) ((ValueIdx.contrEquiv1 dot_S5000x64_S64x32_S5000x32_1_0_0_1_n_n 64 rfl rfl).symm k) = ix2 k c := funext fun ax => Fin.ext (by
    match ax with
    | ⟨0, _⟩ => exact (rhs32_0 _ _).trans hk
    | ⟨1, _⟩ => exact rhs32_1 _ _)
  rw [el, er]

/-! ## The hidden rows of a block -/

/-- The block's hidden row p at column c, from the entries of the loaded blocks. -/
def hidBlk (v0 : Vec Ideal S5000x64 .f32) (v2 : Vec Ideal S5000x1 .f32) (v7 : Vec Ideal S5000x64 .f32)
    (v9 : Vec Ideal S64x64 .f32) (v11 : Vec Ideal S64x64 .f32) (v14 : Vec Ideal S1x64 .f32) (p : Fin 5000) (c : Fin 64) : EReal :=
  max (((∑ k : Fin 64, (v0 (ix2 p k) * v2 (ix2 p (0 : Fin 1))) * v9 (ix2 k c)) + v14 (ix2 (0 : Fin 1) c))
    + ∑ k : Fin 64, v7 (ix2 p k) * v11 (ix2 k c)) 0

/-- The first payload — the hidden rows narrowed — at (p, c). -/
theorem pay1_apply (v0 : Vec Ideal S5000x64 .f32) (v2 : Vec Ideal S5000x1 .f32) (v7 : Vec Ideal S5000x64 .f32)
    (v9 : Vec Ideal S64x64 .f32) (v11 : Vec Ideal S64x64 .f32) (v14 : Vec Ideal S1x64 .f32) (p : Fin 5000) (c : Fin 64) :
    k0_pay1 (F := Ideal) v0 v2 v7 v9 v11 v14 (ix2 p c) = hidBlk v0 v2 v7 v9 v11 v14 p c := by
  unfold k0_pay1 hidBlk
  simp only [truncf_apply, maximumf_apply, addf_apply, broadcast_apply]
  refine congrArg₂ max (congrArg₂ (· + ·) (congrArg₂ (· + ·) ?_ ?_) ?_) Ideal.ofBits_zero_f32
  · refine (mm64_apply _ _ p c).trans (Finset.sum_congr rfl fun k _ => ?_)
    simp only [truncf_apply, mulf_apply, shapeCast_self]
    rw [Cert.GatedAttn.ColumnLayout.broadcastTo_a1_ab_apply]
  · rw [shapeCast_self]
    exact broadcastTo_1b_ab_apply v14 broadcasts_S1x64_S5000x64 p c
  · refine (mm64_apply _ _ p c).trans (Finset.sum_congr rfl fun k _ => ?_)
    simp only [truncf_apply]

/-- The payload stored into the first output block, at (p, j): the hidden row p times column j of the matrix. -/
theorem pay2_apply (v0 : Vec Ideal S5000x64 .f32) (v2 : Vec Ideal S5000x1 .f32) (v7 : Vec Ideal S5000x64 .f32)
    (v9 : Vec Ideal S64x64 .f32) (v11 : Vec Ideal S64x64 .f32) (v14 : Vec Ideal S1x64 .f32) (v23 : Vec Ideal S64x32 .f32)
    (p : Fin 5000) (j : Fin 32) :
    k0_pay2 (F := Ideal) v0 v2 v7 v9 v11 v14 v23 (ix2 p j)
      = ∑ k : Fin 64, hidBlk v0 v2 v7 v9 v11 v14 p k * v23 (ix2 k j) := by
  unfold k0_pay2
  refine (mm32_apply _ _ p j).trans (Finset.sum_congr rfl fun k _ => ?_)
  rw [pay1_apply, truncf_apply]

/-- The payload stored into the second output block, at (p, j). -/
theorem pay3_apply (v0 : Vec Ideal S5000x64 .f32) (v2 : Vec Ideal S5000x1 .f32) (v7 : Vec Ideal S5000x64 .f32)
    (v9 : Vec Ideal S64x64 .f32) (v11 : Vec Ideal S64x64 .f32) (v14 : Vec Ideal S1x64 .f32) (v25 : Vec Ideal S64x32 .f32)
    (p : Fin 5000) (j : Fin 32) :
    k0_pay3 (F := Ideal) v0 v2 v7 v9 v11 v14 v25 (ix2 p j)
      = ∑ k : Fin 64, hidBlk v0 v2 v7 v9 v11 v14 p k * v25 (ix2 k j) := by
  unfold k0_pay3
  refine (mm32_apply _ _ p j).trans (Finset.sum_congr rfl fun k _ => ?_)
  rw [pay1_apply, truncf_apply]

end Cert.KernelIdeal.Region0

end
-- ==== Proof.Region0.lean ====
/-
  Region 0's two output arrays as whole-array functions of the arrays the region finds. Grid point t works on
  row block t: it reads rows 5000·t … 5000·t + 4999 of the aggregate, of the per-row column and of the node
  features, and the four weight matrices and the bias row whole, and writes rows 5000·t … 5000·t + 4999 of each
  output. The body's payload at row p of the block is the hidden row of node 5000·t + p times a projection
  matrix, so what point t writes back is block t of one function of the whole arrays; the twenty blocks tile
  the hundred thousand rows, so each output array ends holding that function.
-/
import proofs.«116617_j42880953484118_2_alg».proof.Proof.Gen.KernelIdeal.Frame
import proofs.«116617_j42880953484118_2_alg».proof.Proof.Spec
import proofs.«116617_j42880953484118_2_alg».proof.Proof.Region0Pay
import Idealize.ShloMosaic.Lib.Pipeline.Value

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## A block's payload is a block of the whole-array function -/

/-- When the loaded blocks are rows `ρ p` of the aggregate, of the column and of the features, and the weight
    matrices and the bias row whole, the first payload at (p, j) is the projected hidden row of node `ρ p`. -/
theorem pay2_block (msg : S100000x64.Idx → EReal) (inv : S100000x1.Idx → EReal) (x : S100000x64.Idx → EReal)
    (Wl : S64x64.Idx → EReal) (br : S1x64.Idx → EReal) (Wr : S64x64.Idx → EReal) (W : S64x32.Idx → EReal)
    (ρ : Fin 5000 → Fin 100000)
    (x0 : Vec Ideal S5000x64 .f32) (x1 : Vec Ideal S5000x1 .f32) (x2 : Vec Ideal S5000x64 .f32)
    (x3 : Vec Ideal S64x64 .f32) (x4 : Vec Ideal S1x64 .f32) (x5 : Vec Ideal S64x64 .f32) (x6 : Vec Ideal S64x32 .f32)
    (h0 : ∀ (p : Fin 5000) (k : Fin 64), x0 (ix2 p k) = msg (ix2 (ρ p) k))
    (h1 : ∀ (p : Fin 5000) (u : Fin 1), x1 (ix2 p u) = inv (ix2 (ρ p) u))
    (h2 : ∀ (p : Fin 5000) (k : Fin 64), x2 (ix2 p k) = x (ix2 (ρ p) k))
    (h3 : ∀ (a : Fin 64) (b : Fin 64), x3 (ix2 a b) = Wl (ix2 a b))
    (h4 : ∀ (a : Fin 1) (b : Fin 64), x4 (ix2 a b) = br (ix2 a b))
    (h5 : ∀ (a : Fin 64) (b : Fin 64), x5 (ix2 a b) = Wr (ix2 a b))
    (h6 : ∀ (a : Fin 64) (b : Fin 32), x6 (ix2 a b) = W (ix2 a b))
    (p : Fin 5000) (j : Fin 32) :
    k0_pay2 (F := Ideal) x0 x1 x2 x3 x5 x4 x6 (ix2 p j) = Sage.projArr (Sage.hidMul msg inv x Wl br Wr) W (ix2 (ρ p) j) := by
  refine (pay2_apply x0 x1 x2 x3 x5 x4 x6 p j).trans ?_
  show _ = ∑ k : Fin 64, Sage.hidMul msg inv x Wl br Wr (ρ p) k * W (ix2 k j)
  refine Finset.sum_congr rfl fun k _ => ?_
  rw [h6 k j]
  congr 1
  unfold hidBlk Sage.hidMul Sage.hidOf
  simp only [h0, h1, h2, h3, h4, h5]

/-- The same for the second payload. -/
theorem pay3_block (msg : S100000x64.Idx → EReal) (inv : S100000x1.Idx → EReal) (x : S100000x64.Idx → EReal)
    (Wl : S64x64.Idx → EReal) (br : S1x64.Idx → EReal) (Wr : S64x64.Idx → EReal) (W : S64x32.Idx → EReal)
    (ρ : Fin 5000 → Fin 100000)
    (x0 : Vec Ideal S5000x64 .f32) (x1 : Vec Ideal S5000x1 .f32) (x2 : Vec Ideal S5000x64 .f32)
    (x3 : Vec Ideal S64x64 .f32) (x4 : Vec Ideal S1x64 .f32) (x5 : Vec Ideal S64x64 .f32) (x7 : Vec Ideal S64x32 .f32)
    (h0 : ∀ (p : Fin 5000) (k : Fin 64), x0 (ix2 p k) = msg (ix2 (ρ p) k))
    (h1 : ∀ (p : Fin 5000) (u : Fin 1), x1 (ix2 p u) = inv (ix2 (ρ p) u))
    (h2 : ∀ (p : Fin 5000) (k : Fin 64), x2 (ix2 p k) = x (ix2 (ρ p) k))
    (h3 : ∀ (a : Fin 64) (b : Fin 64), x3 (ix2 a b) = Wl (ix2 a b))
    (h4 : ∀ (a : Fin 1) (b : Fin 64), x4 (ix2 a b) = br (ix2 a b))
    (h5 : ∀ (a : Fin 64) (b : Fin 64), x5 (ix2 a b) = Wr (ix2 a b))
    (h7 : ∀ (a : Fin 64) (b : Fin 32), x7 (ix2 a b) = W (ix2 a b))
    (p : Fin 5000) (j : Fin 32) :
    k0_pay3 (F := Ideal) x0 x1 x2 x3 x5 x4 x7 (ix2 p j) = Sage.projArr (Sage.hidMul msg inv x Wl br Wr) W (ix2 (ρ p) j) := by
  refine (pay3_apply x0 x1 x2 x3 x5 x4 x7 p j).trans ?_
  show _ = ∑ k : Fin 64, Sage.hidMul msg inv x Wl br Wr (ρ p) k * W (ix2 k j)
  refine Finset.sum_congr rfl fun k _ => ?_
  rw [h7 k j]
  congr 1
  unfold hidBlk Sage.hidMul Sage.hidOf
  simp only [h0, h1, h2, h3, h4, h5]

/-! ## Where each window's block sits in its array -/

variable (V : (c : Dev nD) → (b : Ref sig .tc) → Buf (Elt Ideal) ((c : Thread nD τ).loc b))

theorem hz : (![0, 0] : Fin 2 → Nat) = fun _ => 0 := funext fun a => by fin_cases a <;> rfl

/-- The array row of row `p` of row block `t`. -/
def rowOf (t : Fin cfg0.N) (p : Fin 5000) : Fin 100000 :=
  ⟨t.val * 5000 + p.val, by have := t.isLt; have hN : cfg0.N = 20 := N_0; have := p.isLt; omega⟩

/-- Window 0's block index at point `t`, decided over the grid: row block `t`, the one column block. -/
theorem idx0_0 : ∀ t : Fin cfg0.N, win0_0.index t (0 : Fin 2) = t.val ∧ win0_0.index t (1 : Fin 2) = 0 :=
  (by decide +kernel : ∀ t : Fin grid0.N, _)
/-- Window 1's block index at point `t`, decided over the grid: row block `t`, the one column block. -/
theorem idx0_1 : ∀ t : Fin cfg0.N, win0_1.index t (0 : Fin 2) = t.val ∧ win0_1.index t (1 : Fin 2) = 0 :=
  (by decide +kernel : ∀ t : Fin grid0.N, _)
/-- Window 2's block index at point `t`, decided over the grid: row block `t`, the one column block. -/
theorem idx0_2 : ∀ t : Fin cfg0.N, win0_2.index t (0 : Fin 2) = t.val ∧ win0_2.index t (1 : Fin 2) = 0 :=
  (by decide +kernel : ∀ t : Fin grid0.N, _)
/-- Window 3's block index at point `t`, decided over the grid: the one block, at every point. -/
theorem idx0_3 : ∀ t : Fin cfg0.N, win0_3.index t (0 : Fin 2) = 0 ∧ win0_3.index t (1 : Fin 2) = 0 :=
  (by decide +kernel : ∀ t : Fin grid0.N, _)
/-- Window 4's block index at point `t`, decided over the grid: the one block, at every point. -/
theorem idx0_4 : ∀ t : Fin cfg0.N, win0_4.index t (0 : Fin 2) = 0 ∧ win0_4.index t (1 : Fin 2) = 0 :=
  (by decide +kernel : ∀ t : Fin grid0.N, _)
/-- Window 5's block index at point `t`, decided over the grid: the one block, at every point. -/
theorem idx0_5 : ∀ t : Fin cfg0.N, win0_5.index t (0 : Fin 2) = 0 ∧ win0_5.index t (1 : Fin 2) = 0 :=
  (by decide +kernel : ∀ t : Fin grid0.N, _)
/-- Window 6's block index at point `t`, decided over the grid: the one block, at every point. -/
theorem idx0_6 : ∀ t : Fin cfg0.N, win0_6.index t (0 : Fin 2) = 0 ∧ win0_6.index t (1 : Fin 2) = 0 :=
  (by decide +kernel : ∀ t : Fin grid0.N, _)
/-- Window 7's block index at point `t`, decided over the grid: the one block, at every point. -/
theorem idx0_7 : ∀ t : Fin cfg0.N, win0_7.index t (0 : Fin 2) = 0 ∧ win0_7.index t (1 : Fin 2) = 0 :=
  (by decide +kernel : ∀ t : Fin grid0.N, _)
/-- Window 8's block index at point `t`, decided over the grid: row block `t`, the one column block. -/
theorem idx0_8 : ∀ t : Fin cfg0.N, win0_8.index t (0 : Fin 2) = t.val ∧ win0_8.index t (1 : Fin 2) = 0 :=
  (by decide +kernel : ∀ t : Fin grid0.N, _)
/-- Window 9's block index at point `t`, decided over the grid: row block `t`, the one column block. -/
theorem idx0_9 : ∀ t : Fin cfg0.N, win0_9.index t (0 : Fin 2) = t.val ∧ win0_9.index t (1 : Fin 2) = 0 :=
  (by decide +kernel : ∀ t : Fin grid0.N, _)

/-- Window 0's block at point `t`, entry by entry: rows `rowOf t ·` of its array. -/
theorem blk0_0 (c : Dev nD) (t : Fin cfg0.N) (p : Fin 5000) (k : Fin 64) :
    (iblk0 V c 0 t : Vec Ideal S5000x64 .f32) (ix2 p k) = (V c main_v22 : S100000x64.Idx → EReal) (ix2 (rowOf t p) k) := by
  obtain ⟨e0, e1⟩ := idx0_0 t
  unfold iblk0
  rw [View.read_apply]
  show (V c main_v22 : S100000x64.Idx → EReal) _ = _
  congr 1
  funext a; apply Fin.ext
  match a with
  | ⟨0, _⟩ => show win0_0.index t (0 : Fin 2) * 5000 + 1 * p.val = t.val * 5000 + p.val; rw [e0]; omega
  | ⟨1, _⟩ => show win0_0.index t (1 : Fin 2) * 64 + 1 * k.val = k.val; rw [e1]; omega

/-- Window 1's block at point `t`, entry by entry: rows `rowOf t ·` of its array. -/
theorem blk0_1 (c : Dev nD) (t : Fin cfg0.N) (p : Fin 5000) (k : Fin 1) :
    (iblk0 V c 1 t : Vec Ideal S5000x1 .f32) (ix2 p k) = (V c main_v12 : S100000x1.Idx → EReal) (ix2 (rowOf t p) k) := by
  obtain ⟨e0, e1⟩ := idx0_1 t
  unfold iblk0
  rw [View.read_apply]
  show (V c main_v12 : S100000x1.Idx → EReal) _ = _
  congr 1
  funext a; apply Fin.ext
  match a with
  | ⟨0, _⟩ => show win0_1.index t (0 : Fin 2) * 5000 + 1 * p.val = t.val * 5000 + p.val; rw [e0]; omega
  | ⟨1, _⟩ => show win0_1.index t (1 : Fin 2) * 1 + 1 * k.val = k.val; rw [e1]; omega

/-- Window 2's block at point `t`, entry by entry: rows `rowOf t ·` of its array. -/
theorem blk0_2 (c : Dev nD) (t : Fin cfg0.N) (p : Fin 5000) (k : Fin 64) :
    (iblk0 V c 2 t : Vec Ideal S5000x64 .f32) (ix2 p k) = (V c main_arg0 : S100000x64.Idx → EReal) (ix2 (rowOf t p) k) := by
  obtain ⟨e0, e1⟩ := idx0_2 t
  unfold iblk0
  rw [View.read_apply]
  show (V c main_arg0 : S100000x64.Idx → EReal) _ = _
  congr 1
  funext a; apply Fin.ext
  match a with
  | ⟨0, _⟩ => show win0_2.index t (0 : Fin 2) * 5000 + 1 * p.val = t.val * 5000 + p.val; rw [e0]; omega
  | ⟨1, _⟩ => show win0_2.index t (1 : Fin 2) * 64 + 1 * k.val = k.val; rw [e1]; omega

/-- Window 3's block at point `t`, entry by entry: its whole array. -/
theorem blk0_3 (c : Dev nD) (t : Fin cfg0.N) (p : Fin 64) (k : Fin 64) :
    (iblk0 V c 3 t : Vec Ideal S64x64 .f32) (ix2 p k) = (V c main_arg2 : S64x64.Idx → EReal) (ix2 p k) := by
  obtain ⟨e0, e1⟩ := idx0_3 t
  unfold iblk0
  rw [View.read_apply]
  show (V c main_arg2 : S64x64.Idx → EReal) _ = _
  congr 1
  funext a; apply Fin.ext
  match a with
  | ⟨0, _⟩ => show win0_3.index t (0 : Fin 2) * 64 + 1 * p.val = p.val; rw [e0]; omega
  | ⟨1, _⟩ => show win0_3.index t (1 : Fin 2) * 64 + 1 * k.val = k.val; rw [e1]; omega

/-- Window 4's block at point `t`, entry by entry: its whole array. -/
theorem blk0_4 (c : Dev nD) (t : Fin cfg0.N) (p : Fin 1) (k : Fin 64) :
    (iblk0 V c 4 t : Vec Ideal S1x64 .f32) (ix2 p k) = (V c main_v23 : S1x64.Idx → EReal) (ix2 p k) := by
  obtain ⟨e0, e1⟩ := idx0_4 t
  unfold iblk0
  rw [View.read_apply]
  show (V c main_v23 : S1x64.Idx → EReal) _ = _
  congr 1
  funext a; apply Fin.ext
  match a with
  | ⟨0, _⟩ => show win0_4.index t (0 : Fin 2) * 1 + 1 * p.val = p.val; rw [e0]; omega
  | ⟨1, _⟩ => show win0_4.index t (1 : Fin 2) * 64 + 1 * k.val = k.val; rw [e1]; omega

/-- Window 5's block at point `t`, entry by entry: its whole array. -/
theorem blk0_5 (c : Dev nD) (t : Fin cfg0.N) (p : Fin 64) (k : Fin 64) :
    (iblk0 V c 5 t : Vec Ideal S64x64 .f32) (ix2 p k) = (V c main_arg4 : S64x64.Idx → EReal) (ix2 p k) := by
  obtain ⟨e0, e1⟩ := idx0_5 t
  unfold iblk0
  rw [View.read_apply]
  show (V c main_arg4 : S64x64.Idx → EReal) _ = _
  congr 1
  funext a; apply Fin.ext
  match a with
  | ⟨0, _⟩ => show win0_5.index t (0 : Fin 2) * 64 + 1 * p.val = p.val; rw [e0]; omega
  | ⟨1, _⟩ => show win0_5.index t (1 : Fin 2) * 64 + 1 * k.val = k.val; rw [e1]; omega

/-- Window 6's block at point `t`, entry by entry: its whole array. -/
theorem blk0_6 (c : Dev nD) (t : Fin cfg0.N) (p : Fin 64) (k : Fin 32) :
    (iblk0 V c 6 t : Vec Ideal S64x32 .f32) (ix2 p k) = (V c main_arg5 : S64x32.Idx → EReal) (ix2 p k) := by
  obtain ⟨e0, e1⟩ := idx0_6 t
  unfold iblk0
  rw [View.read_apply]
  show (V c main_arg5 : S64x32.Idx → EReal) _ = _
  congr 1
  funext a; apply Fin.ext
  match a with
  | ⟨0, _⟩ => show win0_6.index t (0 : Fin 2) * 64 + 1 * p.val = p.val; rw [e0]; omega
  | ⟨1, _⟩ => show win0_6.index t (1 : Fin 2) * 32 + 1 * k.val = k.val; rw [e1]; omega

/-- Window 7's block at point `t`, entry by entry: its whole array. -/
theorem blk0_7 (c : Dev nD) (t : Fin cfg0.N) (p : Fin 64) (k : Fin 32) :
    (iblk0 V c 7 t : Vec Ideal S64x32 .f32) (ix2 p k) = (V c main_arg7 : S64x32.Idx → EReal) (ix2 p k) := by
  obtain ⟨e0, e1⟩ := idx0_7 t
  unfold iblk0
  rw [View.read_apply]
  show (V c main_arg7 : S64x32.Idx → EReal) _ = _
  congr 1
  funext a; apply Fin.ext
  match a with
  | ⟨0, _⟩ => show win0_7.index t (0 : Fin 2) * 64 + 1 * p.val = p.val; rw [e0]; omega
  | ⟨1, _⟩ => show win0_7.index t (1 : Fin 2) * 32 + 1 * k.val = k.val; rw [e1]; omega

/-! ## Output window 8 -/

/-- The function output window 8's array ends holding. -/
abbrev G8 (c : Dev nD) : S100000x32.Idx → EReal :=
  Sage.projArr (Sage.hidMul (V c main_v22) (V c main_v12) (V c main_arg0) (V c main_arg2) (V c main_v23) (V c main_arg4)) (V c main_arg5)

/-- What point `t` writes back to output window 8's array is block `t` of `G8`. -/
theorem flushed8_eq (c : Dev nD) (t : Fin cfg0.N) :
    (dat0 (F := Ideal) V c).flushed 8 t = ((cfg0.win 8).blk t).view.read (Elt Ideal) (G8 V c) := by
  show (cfg0.win 8).cut (grid0.coords t) ((dat0 (F := Ideal) V c).after 8 t) = _
  rw [after0_8]
  unfold out0_8
  rw [View.canon_unit_zero hz]
  simp only [View.ld_unit_zero (S := S5000x64) hz, View.ld_unit_zero (S := S5000x1) hz, View.ld_unit_zero (S := S64x64) hz,
    View.ld_unit_zero (S := S1x64) hz, View.ld_unit_zero (S := S64x32) hz]
  funext y
  obtain ⟨p, j, rfl⟩ : ∃ (p : Fin 5000) (j : Fin 32), y = ix2 p j := ⟨y 0, y 1, eq_ix2 (n0 := 5000) (n1 := 32) y⟩
  obtain ⟨e0, e1⟩ := idx0_8 t
  have he : ((cfg0.win 8).blk t).view.emb (ix2 p j) = (ix2 (rowOf t p) j : S100000x32.Idx) := by
    funext a; apply Fin.ext
    match a with
    | ⟨0, _⟩ => show win0_8.index t (0 : Fin 2) * 5000 + 1 * p.val = t.val * 5000 + p.val; rw [e0]; omega
    | ⟨1, _⟩ => show win0_8.index t (1 : Fin 2) * 32 + 1 * j.val = j.val; rw [e1]; omega
  show k0_pay2 (F := Ideal) (iblk0 V c 0 t) (iblk0 V c 1 t) (iblk0 V c 2 t) (iblk0 V c 3 t) (iblk0 V c 5 t) (iblk0 V c 4 t) (iblk0 V c 6 t) (ix2 p j)
    = G8 V c (((cfg0.win 8).blk t).view.emb (ix2 p j))
  rw [he]
  exact pay2_block (V c main_v22) (V c main_v12) (V c main_arg0) (V c main_arg2) (V c main_v23) (V c main_arg4) (V c main_arg5) (rowOf t)
    (iblk0 V c 0 t) (iblk0 V c 1 t) (iblk0 V c 2 t) (iblk0 V c 3 t) (iblk0 V c 4 t) (iblk0 V c 5 t) (iblk0 V c 6 t)
    (blk0_0 V c t) (blk0_1 V c t) (blk0_2 V c t) (blk0_3 V c t) (blk0_4 V c t) (blk0_5 V c t) (blk0_6 V c t) p j

/-- An index of the array is in point `t`'s block iff each coordinate is in the block's range on its axis. -/
theorem mem_blk8 (t : Fin cfg0.N) (i : S100000x32.Idx) :
    i ∈ ((cfg0.win 8).blk t).view.set ↔ ∀ a : Fin 2, win0_8.index t a * S5000x32.size a ≤ (i a).val ∧ (i a).val < win0_8.index t a * S5000x32.size a + S5000x32.size a := by
  show i ∈ ((View.whole main_v24_0).slice (win0_8.rect t)).set ↔ _
  rw [View.set_slice_whole, Rect.mem_set_unit]
  exact Iff.rfl

/-- Every row of the array is in the block of the point its row block names. -/
theorem cover8 (i : S100000x32.Idx) : ∃ t : Fin cfg0.N, (cfg0.win 8).flush t = true ∧ i ∈ ((cfg0.win 8).blk t).view.set := by
  have hN : cfg0.N = 20 := N_0
  have hi0 : (i 0).val < 100000 := (i 0).isLt
  have hi1 : (i 1).val < 32 := (i 1).isLt
  have ht : (i 0).val / 5000 < cfg0.N := by omega
  obtain ⟨e0, e1⟩ := idx0_8 ⟨(i 0).val / 5000, ht⟩
  have q0 : win0_8.index ⟨(i 0).val / 5000, ht⟩ (0 : Fin 2) = (i 0).val / 5000 := e0
  refine ⟨⟨(i 0).val / 5000, ht⟩, flush0_8 _, ?_⟩
  rw [mem_blk8]
  intro a
  match a with
  | ⟨0, _⟩ =>
    show win0_8.index ⟨(i 0).val / 5000, ht⟩ (0 : Fin 2) * 5000 ≤ (i 0).val ∧ (i 0).val < win0_8.index ⟨(i 0).val / 5000, ht⟩ (0 : Fin 2) * 5000 + 5000
    rw [q0]; omega
  | ⟨1, _⟩ =>
    show win0_8.index ⟨(i 0).val / 5000, ht⟩ (1 : Fin 2) * 32 ≤ (i 1).val ∧ (i 1).val < win0_8.index ⟨(i 0).val / 5000, ht⟩ (1 : Fin 2) * 32 + 32
    rw [e1]; omega

/-- Output window 8's array after the region. -/
theorem final8 (c : Dev nD) :
    (dat0 (F := Ideal) V c).arrAt 8 cfg0.N
      = Sage.projArr (Sage.hidMul (V c main_v22) (V c main_v12) (V c main_arg0) (V c main_arg2) (V c main_v23) (V c main_arg4)) (V c main_arg5) :=
  (dat0 (F := Ideal) V c).arrAt_eq_of_cover 8 (G8 V c) (fun t _ => flushed8_eq V c t) (cover8)

/-! ## Output window 9 -/

/-- The function output window 9's array ends holding. -/
abbrev G9 (c : Dev nD) : S100000x32.Idx → EReal :=
  Sage.projArr (Sage.hidMul (V c main_v22) (V c main_v12) (V c main_arg0) (V c main_arg2) (V c main_v23) (V c main_arg4)) (V c main_arg7)

/-- What point `t` writes back to output window 9's array is block `t` of `G9`. -/
theorem flushed9_eq (c : Dev nD) (t : Fin cfg0.N) :
    (dat0 (F := Ideal) V c).flushed 9 t = ((cfg0.win 9).blk t).view.read (Elt Ideal) (G9 V c) := by
  show (cfg0.win 9).cut (grid0.coords t) ((dat0 (F := Ideal) V c).after 9 t) = _
  rw [after0_9]
  unfold out0_9
  rw [View.canon_unit_zero hz]
  simp only [View.ld_unit_zero (S := S5000x64) hz, View.ld_unit_zero (S := S5000x1) hz, View.ld_unit_zero (S := S64x64) hz,
    View.ld_unit_zero (S := S1x64) hz, View.ld_unit_zero (S := S64x32) hz]
  funext y
  obtain ⟨p, j, rfl⟩ : ∃ (p : Fin 5000) (j : Fin 32), y = ix2 p j := ⟨y 0, y 1, eq_ix2 (n0 := 5000) (n1 := 32) y⟩
  obtain ⟨e0, e1⟩ := idx0_9 t
  have he : ((cfg0.win 9).blk t).view.emb (ix2 p j) = (ix2 (rowOf t p) j : S100000x32.Idx) := by
    funext a; apply Fin.ext
    match a with
    | ⟨0, _⟩ => show win0_9.index t (0 : Fin 2) * 5000 + 1 * p.val = t.val * 5000 + p.val; rw [e0]; omega
    | ⟨1, _⟩ => show win0_9.index t (1 : Fin 2) * 32 + 1 * j.val = j.val; rw [e1]; omega
  show k0_pay3 (F := Ideal) (iblk0 V c 0 t) (iblk0 V c 1 t) (iblk0 V c 2 t) (iblk0 V c 3 t) (iblk0 V c 5 t) (iblk0 V c 4 t) (iblk0 V c 7 t) (ix2 p j)
    = G9 V c (((cfg0.win 9).blk t).view.emb (ix2 p j))
  rw [he]
  exact pay3_block (V c main_v22) (V c main_v12) (V c main_arg0) (V c main_arg2) (V c main_v23) (V c main_arg4) (V c main_arg7) (rowOf t)
    (iblk0 V c 0 t) (iblk0 V c 1 t) (iblk0 V c 2 t) (iblk0 V c 3 t) (iblk0 V c 4 t) (iblk0 V c 5 t) (iblk0 V c 7 t)
    (blk0_0 V c t) (blk0_1 V c t) (blk0_2 V c t) (blk0_3 V c t) (blk0_4 V c t) (blk0_5 V c t) (blk0_7 V c t) p j

/-- An index of the array is in point `t`'s block iff each coordinate is in the block's range on its axis. -/
theorem mem_blk9 (t : Fin cfg0.N) (i : S100000x32.Idx) :
    i ∈ ((cfg0.win 9).blk t).view.set ↔ ∀ a : Fin 2, win0_9.index t a * S5000x32.size a ≤ (i a).val ∧ (i a).val < win0_9.index t a * S5000x32.size a + S5000x32.size a := by
  show i ∈ ((View.whole main_v24_1).slice (win0_9.rect t)).set ↔ _
  rw [View.set_slice_whole, Rect.mem_set_unit]
  exact Iff.rfl

/-- Every row of the array is in the block of the point its row block names. -/
theorem cover9 (i : S100000x32.Idx) : ∃ t : Fin cfg0.N, (cfg0.win 9).flush t = true ∧ i ∈ ((cfg0.win 9).blk t).view.set := by
  have hN : cfg0.N = 20 := N_0
  have hi0 : (i 0).val < 100000 := (i 0).isLt
  have hi1 : (i 1).val < 32 := (i 1).isLt
  have ht : (i 0).val / 5000 < cfg0.N := by omega
  obtain ⟨e0, e1⟩ := idx0_9 ⟨(i 0).val / 5000, ht⟩
  have q0 : win0_9.index ⟨(i 0).val / 5000, ht⟩ (0 : Fin 2) = (i 0).val / 5000 := e0
  refine ⟨⟨(i 0).val / 5000, ht⟩, flush0_9 _, ?_⟩
  rw [mem_blk9]
  intro a
  match a with
  | ⟨0, _⟩ =>
    show win0_9.index ⟨(i 0).val / 5000, ht⟩ (0 : Fin 2) * 5000 ≤ (i 0).val ∧ (i 0).val < win0_9.index ⟨(i 0).val / 5000, ht⟩ (0 : Fin 2) * 5000 + 5000
    rw [q0]; omega
  | ⟨1, _⟩ =>
    show win0_9.index ⟨(i 0).val / 5000, ht⟩ (1 : Fin 2) * 32 ≤ (i 1).val ∧ (i 1).val < win0_9.index ⟨(i 0).val / 5000, ht⟩ (1 : Fin 2) * 32 + 32
    rw [e1]; omega

/-- Output window 9's array after the region. -/
theorem final9 (c : Dev nD) :
    (dat0 (F := Ideal) V c).arrAt 9 cfg0.N
      = Sage.projArr (Sage.hidMul (V c main_v22) (V c main_v12) (V c main_arg0) (V c main_arg2) (V c main_v23) (V c main_arg4)) (V c main_arg7) :=
  (dat0 (F := Ideal) V c).arrAt_eq_of_cover 9 (G9 V c) (fun t _ => flushed9_eq V c t) (cover9)

end Cert.KernelIdeal.Region0

end
-- ==== Proof.Region1.lean ====
/-
  The second pallas region as a whole-array function: every grid point writes back one row block of the
  combination "aggregate scaled per node, plus the bias row, plus the second array", and the row blocks tile
  the output array.
-/
import proofs.«116617_j42880953484118_2_alg».proof.Proof.Gen.KernelIdeal.Frame
import proofs.«116617_j42880953484118_2_alg».proof.Proof.Spec
import proofs.«116617_j42880953484118_2_alg».proof.Proof.LibColumnLayout
import Idealize.ShloMosaic.Lib.ValueLayout

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-- The zero offset of a whole-block access. -/
theorem hz : (![0, 0] : Fin 2 → Nat) = fun _ => 0 := funext fun a => by fin_cases a <;> rfl

/-- The body's payload at row `p`, column `q` of a block: the first block's entry times the column's entry of
    that row, plus the row vector's entry of that column, plus the second block's entry. -/
theorem pay_apply (x0 : Vec Ideal S5000x32 .f32) (x1 : Vec Ideal S5000x1 .f32) (x3 : Vec Ideal S1x32 .f32)
    (x2 : Vec Ideal S5000x32 .f32) (p : Fin 5000) (q : Fin 32) :
    k1_pay1 (F := Ideal) x0 x1 x3 x2 (ix2 p q)
      = ((x0 (ix2 p q) * x1 (ix2 p (0 : Fin 1))) + x3 (ix2 (0 : Fin 1) q)) + x2 (ix2 p q) := by
  unfold k1_pay1
  simp only [shapeCast_self]
  show ((x0 (ix2 p q) * broadcastTo S5000x32 x1 broadcasts_S5000x1_S5000x32 (ix2 p q))
      + broadcastTo S5000x32 x3 broadcasts_S1x32_S5000x32 (ix2 p q)) + x2 (ix2 p q) = _
  rw [Cert.GatedAttn.ColumnLayout.broadcastTo_a1_ab_apply, broadcastTo_1b_ab_apply]

/-- The combination read at an index, from the entries its four operands are read at. -/
theorem comb_at (A : S100000x32.Idx → EReal) (B : S100000x1.Idx → EReal) (R : S100000x32.Idx → EReal)
    (b : S1x32.Idx → EReal) (i0 i2 i4 : S100000x32.Idx) (i1 : S100000x1.Idx) (i3 : S1x32.Idx)
    (r : Fin 100000) (q : Fin 32) (h0 : i0 = ix2 r q) (h1 : i1 = ix2 r (0 : Fin 1)) (h2 : i2 = ix2 r q)
    (h3 : i3 = ix2 (0 : Fin 1) q) (h4 : i4 = ix2 r q) :
    ((A i0 * B i1) + b i3) + R i2 = Sage.combArr A B R b i4 := by
  subst h0 h1 h2 h3 h4
  rfl

/-- The printed index maps over the grid: the row-blocked windows sit at row block `t`, column block `0`; the row
    vector's window at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b)) (c : Dev nD)

/-- The array row of row `p` of row block `t`. -/
abbrev arow (t : Fin cfg1.N) (p : Fin 5000) : Fin 100000 := ⟨t.val * 5000 + p.val, by
  have ht : t.val < 20 := t.isLt
  have hp := p.isLt
  omega⟩

/-- WHAT POINT `t` WRITES BACK is row block `t` of the combination of the four arrays the region finds. -/
theorem flushed_eq (t : Fin cfg1.N) :
    (dat1 (F := Ideal) V c).flushed 4 t
      = ((cfg1.win 4).blk t).view.read (Elt Ideal)
          (Sage.combArr (V c main_v34) (V c main_v12) (V c main_v24_1) (V c main_v35)) := by
  show (cfg1.win 4).cut (grid1.coords t) ((dat1 (F := Ideal) V c).after 4 t) = _
  rw [after1_4]
  unfold out1_4
  rw [View.canon_unit_zero hz]
  simp only [View.ld_unit_zero (S := S5000x32) hz, View.ld_unit_zero (S := S5000x1) hz, View.ld_unit_zero (S := S1x32) hz]
  obtain ⟨e00, e01, e10, e11, e20, e21, e30, e31, e40, e41⟩ := idx_facts t
  funext j
  obtain ⟨p, q, rfl⟩ : ∃ (p : Fin 5000) (q : Fin 32), j = ix2 p q := ⟨j 0, j 1, eq_ix2 j⟩
  have hp := p.isLt
  have hq := q.isLt
  have ht : t.val < 20 := t.isLt
  have h0 : ((cfg1.win 0).blk t).view.emb (ix2 p q) = ix2 (arow t p) q := by
    funext a; apply Fin.ext
    match a with
    | ⟨0, _⟩ => show win1_0.index t (0 : Fin 2) * 5000 + 1 * p.val = t.val * 5000 + p.val; omega
    | ⟨1, _⟩ => show win1_0.index t (1 : Fin 2) * 32 + 1 * q.val = q.val; omega
  have h1 : ((cfg1.win 1).blk t).view.emb (ix2 p (0 : Fin 1)) = ix2 (arow t p) (0 : Fin 1) := by
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  have h2 : ((cfg1.win 2).blk t).view.emb (ix2 p q) = ix2 (arow t p) q := by
    funext a; apply Fin.ext
    match a with
    | ⟨0, _⟩ => show win1_2.index t (0 : Fin 2) * 5000 + 1 * p.val = t.val * 5000 + p.val; omega
    | ⟨1, _⟩ => show win1_2.index t (1 : Fin 2) * 32 + 1 * q.val = q.val; omega
  have h3 : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 32 + 1 * q.val = q.val; omega
  have h4 : ((cfg1.win 4).blk t).view.emb (ix2 p q) = ix2 (arow t p) q := by
    funext a; apply Fin.ext
    match a with
    | ⟨0, _⟩ => show win1_4.index t (0 : Fin 2) * 5000 + 1 * p.val = t.val * 5000 + p.val; omega
    | ⟨1, _⟩ => show win1_4.index t (1 : Fin 2) * 32 + 1 * q.val = q.val; omega
  show k1_pay1 (F := Ideal) (iblk1 V c 0 t) (iblk1 V c 1 t) (iblk1 V c 3 t) (iblk1 V c 2 t) (ix2 p q)
    = Sage.combArr (V c main_v34) (V c main_v12) (V c main_v24_1) (V c main_v35) (((cfg1.win 4).blk t).view.emb (ix2 p q))
  refine (pay_apply (iblk1 V c 0 t) (iblk1 V c 1 t) (iblk1 V c 3 t) (iblk1 V c 2 t) p q).trans ?_
  exact comb_at (V c main_v34) (V c main_v12) (V c main_v24_1) (V c main_v35)
    (((cfg1.win 0).blk t).view.emb (ix2 p q)) (((cfg1.win 2).blk t).view.emb (ix2 p q))
    (((cfg1.win 4).blk t).view.emb (ix2 p q)) (((cfg1.win 1).blk t).view.emb (ix2 p (0 : Fin 1)))
    (((cfg1.win 3).blk t).view.emb (ix2 (0 : Fin 1) q)) (arow t p) q h0 h1 h2 h3 h4

/-- An index of the array is in point `t`'s block iff each coordinate is in the block's range on its axis. -/
theorem mem_blk (t : Fin cfg1.N) (i : S100000x32.Idx) :
    i ∈ ((cfg1.win 4).blk t).view.set ↔ ∀ a : Fin 2, win1_4.index t a * S5000x32.size a ≤ (i a).val ∧ (i a).val < win1_4.index t a * S5000x32.size a + S5000x32.size a := by
  show i ∈ ((View.whole main_v36).slice (win1_4.rect t)).set ↔ _
  rw [View.set_slice_whole, Rect.mem_set_unit]
  exact Iff.rfl

/-- Every index of the array is in the block of the point its row falls in. -/
theorem cover (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  let t : Fin cfg1.N := ⟨(i 0).val / 5000, by show (i 0).val / 5000 < 20; omega⟩
  obtain ⟨-, -, -, -, -, -, -, -, e40, e41⟩ := idx_facts t
  have e40' : win1_4.index t (0 : Fin 2) = (i 0).val / 5000 := e40
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 32 ≤ (i 1).val ∧ (i 1).val < win1_4.index t (1 : Fin 2) * 32 + 32; omega

end

/-- THE OUTPUT ARRAY after the region: the combination of the four arrays the region finds, whole. -/
theorem final4 (V : (c : Dev nD) → (b : Ref sig .tc) → Buf (Elt Ideal) ((c : Thread nD τ).loc b)) (c : Dev nD) :
    (dat1 (F := Ideal) V c).arrAt 4 cfg1.N = Sage.combArr (V c main_v34) (V c main_v12) (V c main_v24_1) (V c main_v35) :=
  (dat1 (F := Ideal) V c).arrAt_eq_of_cover 4 _ (fun t _ => flushed_eq V c t) cover

end Cert.KernelIdeal.Region1

end
-- ==== Proof.LibRowOps.lean ====
/-
  Reading the host scatter-add, the host gather and a rank-1 concatenate AT AN INDEX, at the ideal instance
  (floats are extended reals), for dimension numbers that scatter or gather WHOLE ROWS of a matrix (or single
  elements of a vector) at one column of signed start indices.  Everything is generic in the number of rows
  `N` of the operand, the number `E` of start indices, the row width `C` and the index bit width `w`.
-/
import Idealize.ShloMosaic.Lib.ValueIdx
import Idealize.ShloMosaic.Lib.Pipeline.Value

noncomputable section

open scoped BigOperators

namespace LibRowOps

open Idealize.ShloMosaic Idealize.ShloMosaic.ValueIdx

/-! ## Scatter-add of rows: operand `[N, C]`, indices `[E, 1]`, updates `[E, C]` -/

/-- The dimension numbers that scatter row `e` of the updates `[E, C]` to the operand row named by the start index
    `idx[e, 0]`: the updates' axis 1 is the window axis, the operand's axis 0 is inserted and is the one the start
    index addresses, and the index vector lies along axis 1 of the indices. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N E C w : Nat} (wf : ScatterDims.WF ⟨2, ![N, C]⟩ ⟨2, ![E, 1]⟩ ⟨2, ![E, C]⟩ [1] [0] [0] 1)

/-- On the row axis the window of update `u` starts at the signed start index `idx[u₀, 0]`. -/
theorem rowScatter_start0 (idx : IVec ⟨2, ![E, 1]⟩ w) (u : (⟨2, ![E, C]⟩ : Shape).Idx) :
    (rowScatterDims N E C wf).start u idx 0 = (idx (ix2 (u 0) 0)).toInt := by
  unfold ScatterDims.start
  rw [dif_pos (show (0 : Fin 2) ∈ (rowScatterDims N E C wf).scatterDimsToOperandDims from List.mem_singleton.mpr rfl)]
  have hsi : (rowScatterDims N E C wf).siIdx u ⟨List.idxOf (0 : Fin 2) (rowScatterDims N E C wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- On the column axis the window starts at `0`: no start index addresses it. -/
theorem rowScatter_start1 (idx : IVec ⟨2, ![E, 1]⟩ w) (u : (⟨2, ![E, C]⟩ : Shape).Idx) :
    (rowScatterDims N E C wf).start u idx 1 = 0 := by
  unfold ScatterDims.start
  rw [dif_neg (show (1 : Fin 2) ∉ (rowScatterDims N E C wf).scatterDimsToOperandDims from
    (by decide : (1 : Fin 2) ∉ ([0] : List (Fin 2))))]

/-- The row axis is inserted: its window coordinate is `0`. -/
theorem rowScatter_window0 (u : (⟨2, ![E, C]⟩ : Shape).Idx) : (rowScatterDims N E C wf).window u 0 = 0 := by
  unfold ScatterDims.window
  rw [dif_neg (show (0 : Fin 2) ∉ (rowScatterDims N E C wf).sKept by
    simp [ScatterDims.sKept, Shape.kept, List.mem_filter, List.mem_finRange])]

/-- The column axis is the window axis: its window coordinate is the update's column. -/
theorem rowScatter_window1 (u : (⟨2, ![E, C]⟩ : Shape).Idx) : (rowScatterDims N E C wf).window u 1 = (u 1).val := by
  unfold ScatterDims.window
  rw [dif_pos (show (1 : Fin 2) ∈ (rowScatterDims N E C wf).sKept by
    simp [ScatterDims.sKept, Shape.kept, List.mem_filter, List.mem_finRange])]
  rfl

end RowScatter

section RowScatterSum
variable {N E C w : Nat} (wf : ScatterDims.WF ⟨2, ![N, C]⟩ ⟨2, ![E, 1]⟩ ⟨2, ![E, C]⟩ [1] [0] [0] 1)

/-- Where update `u = (e, c)` lands: at operand element `(i, j)` exactly when its start index `idx[e, 0]`, read
    signed, is `i` and its column `c` is `j`; in particular an update whose start index is negative or at least
    `N` lands nowhere. -/
theorem rowScatter_resultIdx_eq_some (idx : IVec ⟨2, ![E, 1]⟩ w) (u : (⟨2, ![E, C]⟩ : Shape).Idx) (i : Fin N)
    (j : Fin C) :
    (rowScatterDims N E C wf).resultIdx? u idx = some (ix2 i j)
      ↔ (idx (ix2 (u 0) 0)).toInt = (i.val : ℤ) ∧ (u 1).val = j.val := by
  have hi := i.isLt
  have hj := j.isLt
  have hu1 : (u 1).val < C := (u 1).isLt
  unfold ScatterDims.resultIdx?
  split
  · next h =>
    rw [Option.some.injEq]
    constructor
    · intro hf
      have h0 : ((rowScatterDims N E C wf).start u idx 0 + ((rowScatterDims N E C wf).window u 0 : ℤ)).toNat = i.val :=
        congrArg (fun f => (f 0).val) hf
      have h1 : ((rowScatterDims N E C wf).start u idx 1 + ((rowScatterDims N E C wf).window u 1 : ℤ)).toNat = j.val :=
        congrArg (fun f => (f 1).val) hf
      have H0 := (h 0).1
      rw [rowScatter_start0, rowScatter_window0] at h0 H0
      rw [rowScatter_start1, rowScatter_window1] at h1
      constructor
      · omega
      · omega
    · rintro ⟨h0, h1⟩
      funext a
      refine Fin.ext ?_
      match a with
      | ⟨0, _⟩ =>
        show ((rowScatterDims N E C wf).start u idx 0 + ((rowScatterDims N E C wf).window u 0 : ℤ)).toNat = i.val
        rw [rowScatter_start0, rowScatter_window0]; omega
      | ⟨1, _⟩ =>
        show ((rowScatterDims N E C wf).start u idx 1 + ((rowScatterDims N E C wf).window u 1 : ℤ)).toNat = j.val
        rw [rowScatter_start1, rowScatter_window1]; omega
  · next h =>
    constructor
    · intro hf; cases hf
    · rintro ⟨h0, h1⟩
      exfalso; apply h; intro a
      match a with
      | ⟨0, _⟩ =>
        show 0 ≤ (rowScatterDims N E C wf).start u idx 0 + ((rowScatterDims N E C wf).window u 0 : ℤ)
          ∧ (rowScatterDims N E C wf).start u idx 0 + ((rowScatterDims N E C wf).window u 0 : ℤ) < (N : ℤ)
        rw [rowScatter_start0, rowScatter_window0]; omega
      | ⟨1, _⟩ =>
        show 0 ≤ (rowScatterDims N E C wf).start u idx 1 + ((rowScatterDims N E C wf).window u 1 : ℤ)
          ∧ (rowScatterDims N E C wf).start u idx 1 + ((rowScatterDims N E C wf).window u 1 : ℤ) < (C : ℤ)
        rw [rowScatter_start1, rowScatter_window1]; omega

/-- THE ROW SCATTER-ADD AT `(i, j)`: the operand's element plus the sum, over the updates `e` whose start index
    `idx[e, 0]` read signed is `i`, of the update's element `(e, j)`. An update whose start index is outside
    `[0, N)` contributes to no element. -/
theorem scatterAdd_rows_apply (x : (⟨2, ![N, C]⟩ : Shape).Idx → EReal) (idx : IVec ⟨2, ![E, 1]⟩ w)
    (upd : (⟨2, ![E, C]⟩ : Shape).Idx → EReal) (i : Fin N) (j : Fin C) :
    Ideal.hostScatterAdd (rowScatterDims N E C wf) x idx upd (ix2 i j)
      = x (ix2 i j) + ∑ e ∈ Finset.univ.filter (fun e : Fin E => (idx (ix2 e 0)).toInt = (i.val : ℤ)), upd (ix2 e j) := by
  unfold Ideal.hostScatterAdd
  congr 1
  have key : ∀ u : (⟨2, ![E, C]⟩ : Shape).Idx,
      u ∈ Finset.univ.filter (fun u => (rowScatterDims N E C wf).resultIdx? u idx = some (ix2 i j)) →
      u = ix2 (⟨(u 0).val, idx2_lt0 u⟩ : Fin E) j := by
    intro u hu
    have h1 := ((rowScatter_resultIdx_eq_some wf idx u i j).1 (Finset.mem_filter.1 hu).2).2
    have hj : u 1 = j := Fin.ext h1
    rw [← hj]
    exact eq_ix2 u
  refine Finset.sum_nbij' (fun u => (⟨(u 0).val, idx2_lt0 u⟩ : Fin E)) (fun e => ix2 e j) ?_ ?_ ?_ ?_ ?_
  · intro u hu
    exact Finset.mem_filter.2 ⟨Finset.mem_univ _,
      ((rowScatter_resultIdx_eq_some wf idx u i j).1 (Finset.mem_filter.1 hu).2).1⟩
  · intro e he
    exact Finset.mem_filter.2 ⟨Finset.mem_univ _,
      (rowScatter_resultIdx_eq_some wf idx (ix2 e j) i j).2 ⟨(Finset.mem_filter.1 he).2, rfl⟩⟩
  · intro u hu
    exact (key u hu).symm
  · intro e _; rfl
  · intro u hu
    exact congrArg upd (key u hu)

end RowScatterSum

/-! ## Scatter-add of elements: operand `[N]`, indices `[E, 1]`, updates `[E]` -/

/-- The dimension numbers that scatter element `e` of the updates `[E]` to the operand element named by the start
    index `idx[e, 0]`: no window axis, the operand's one axis inserted and addressed by the start index, the index
    vector along axis 1 of the indices. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable {N E w : Nat} (wf : ScatterDims.WF ⟨1, ![N]⟩ ⟨2, ![E, 1]⟩ ⟨1, ![E]⟩ [] [0] [0] 1)

/-- The window of update `u` starts at the signed start index `idx[u₀, 0]`. -/
theorem vecScatter_start0 (idx : IVec ⟨2, ![E, 1]⟩ w) (u : (⟨1, ![E]⟩ : Shape).Idx) :
    (vecScatterDims N E wf).start u idx 0 = (idx (ix2 (u 0) 0)).toInt := by
  unfold ScatterDims.start
  rw [dif_pos (show (0 : Fin 1) ∈ (vecScatterDims N E wf).scatterDimsToOperandDims from List.mem_singleton.mpr rfl)]
  have hsi : (vecScatterDims N E wf).siIdx u ⟨List.idxOf (0 : Fin 1) (vecScatterDims N E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- The operand's one axis is inserted: its window coordinate is `0`. -/
theorem vecScatter_window0 (u : (⟨1, ![E]⟩ : Shape).Idx) : (vecScatterDims N E wf).window u 0 = 0 := by
  unfold ScatterDims.window
  rw [dif_neg (show (0 : Fin 1) ∉ (vecScatterDims N E wf).sKept by
    simp [ScatterDims.sKept, Shape.kept, List.mem_filter, List.mem_finRange])]

/-- Where update `u = (e)` lands: at operand element `i` exactly when its start index `idx[e, 0]`, read signed, is
    `i`; an update whose start index is negative or at least `N` lands nowhere. -/
theorem vecScatter_resultIdx_eq_some (idx : IVec ⟨2, ![E, 1]⟩ w) (u : (⟨1, ![E]⟩ : Shape).Idx) (i : Fin N) :
    (vecScatterDims N E wf).resultIdx? u idx = some (ix1 i) ↔ (idx (ix2 (u 0) 0)).toInt = (i.val : ℤ) := by
  have hi := i.isLt
  unfold ScatterDims.resultIdx?
  split
  · next h =>
    rw [Option.some.injEq]
    constructor
    · intro hf
      have h0 : ((vecScatterDims N E wf).start u idx 0 + ((vecScatterDims N E wf).window u 0 : ℤ)).toNat = i.val :=
        congrArg (fun f => (f 0).val) hf
      have H0 := (h 0).1
      rw [vecScatter_start0, vecScatter_window0] at h0 H0
      omega
    · intro h0
      funext a
      refine Fin.ext ?_
      match a with
      | ⟨0, _⟩ =>
        show ((vecScatterDims N E wf).start u idx 0 + ((vecScatterDims N E wf).window u 0 : ℤ)).toNat = i.val
        rw [vecScatter_start0, vecScatter_window0]; omega
  · next h =>
    constructor
    · intro hf; cases hf
    · intro h0
      exfalso; apply h; intro a
      match a with
      | ⟨0, _⟩ =>
        show 0 ≤ (vecScatterDims N E wf).start u idx 0 + ((vecScatterDims N E wf).window u 0 : ℤ)
          ∧ (vecScatterDims N E wf).start u idx 0 + ((vecScatterDims N E wf).window u 0 : ℤ) < (N : ℤ)
        rw [vecScatter_start0, vecScatter_window0]; omega

/-- THE ELEMENT SCATTER-ADD AT `i`: the operand's element plus the sum of the updates `e` whose start index
    `idx[e, 0]` read signed is `i`. An update whose start index is outside `[0, N)` contributes to no element. -/
theorem scatterAdd_vec_apply (x : (⟨1, ![N]⟩ : Shape).Idx → EReal) (idx : IVec ⟨2, ![E, 1]⟩ w)
    (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e 0)).toInt = (i.val : ℤ)), upd (ix1 e) := by
  unfold Ideal.hostScatterAdd
  congr 1
  refine Finset.sum_nbij' (fun u => (⟨(u 0).val, (u 0).isLt⟩ : Fin E)) (fun e => ix1 e) ?_ ?_ ?_ ?_ ?_
  · intro u hu
    exact Finset.mem_filter.2 ⟨Finset.mem_univ _,
      (vecScatter_resultIdx_eq_some wf idx u i).1 (Finset.mem_filter.1 hu).2⟩
  · intro e he
    exact Finset.mem_filter.2 ⟨Finset.mem_univ _,
      (vecScatter_resultIdx_eq_some wf idx (ix1 e) i).2 (Finset.mem_filter.1 he).2⟩
  · intro u _
    exact (eq_ix1 u).symm
  · intro e _; rfl
  · intro u _
    exact congrArg upd (eq_ix1 u)

end VecScatter

/-! ## Gather of rows: operand `[N, C]`, start indices `[E, 1]`, result `[E, C]` -/

/-- The dimension numbers that gather, for each start index `idx[e, 0]`, the whole operand row it names into row
    `e` of the result: the result's axis 1 is the offset axis, the operand's axis 0 is collapsed and addressed by
    the start index, the slice is `1 × C`, and the index vector lies along axis 1 of the indices. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER AT `(e, j)`: the operand at row `idx[e, 0]`, read signed and clamped into `[0, N − 1]`, and
    column `j`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGatherDims N E C wf) x idx (ix2 e j)
      = x (ix2 (⟨min (idx (ix2 e 0)).toInt.toNat (N - 1), by omega⟩ : Fin N) j) := by
  unfold Host.gather
  congr 1
  funext a
  refine Fin.ext ?_
  match a with
  | ⟨0, _⟩ =>
    show (rowGatherDims N E C wf).start (ix2 e j) idx 0 + (rowGatherDims N E C wf).batchCoord (ix2 e j) 0
      + (rowGatherDims N E C wf).offCoord (ix2 e j) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e j) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e j) idx 1 + (rowGatherDims N E C wf).batchCoord (ix2 e j) 1
      + (rowGatherDims N E C wf).offCoord (ix2 e j) 1 = j.val
    rw [GatherDims.batchCoord_eq_zero _ _ _ List.not_mem_nil]
    have hs : (rowGatherDims N E C wf).start (ix2 e j) idx 1 = 0 := by
      unfold GatherDims.start
      rw [dif_neg (show (1 : Fin 2) ∉ (rowGatherDims N E C wf).startIndexMap from
        (by decide : (1 : Fin 2) ∉ ([0] : List (Fin 2))))]
    have ho : (rowGatherDims N E C wf).offCoord (ix2 e j) 1 = j.val := by
      unfold GatherDims.offCoord
      rw [dif_pos ((GatherDims.mem_sKept _ _).mpr
        ⟨(by decide : (1 : Fin 2) ∉ ([0] : List (Fin 2))), List.not_mem_nil⟩)]
      rfl
    rw [hs, ho]
    omega

/-! ## Gather of elements: operand `[N]`, start indices `[E, 1]`, result `[E]` -/

/-- The dimension numbers that gather, for each start index `idx[e, 0]`, the operand element it names into element
    `e` of the result: no offset axis, the operand's one axis collapsed and addressed by the start index, the slice
    one element, the index vector along axis 1 of the indices. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER AT `e`: the operand at `idx[e, 0]`, read signed and clamped into `[0, N − 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e 0)).toInt.toNat (N - 1), by omega⟩ : Fin N)) := by
  unfold Host.gather
  congr 1
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-! ## A rank-1 concatenate: `a : [A]` followed by `b : [B]`, read at a position -/

/-- The two extents of a rank-1 concatenation add up to the result's. -/
theorem concat1_sum {A B T : Nat}
    (h : Shape.Concatenates [(⟨1, ![A]⟩ : Shape), ⟨1, ![B]⟩] ⟨1, ![T]⟩ 0) : A + B = T := by
  have e : A + (B + 0) = T := h.2.2
  omega

/-- A position below the first extent reads the first piece at that position. -/
theorem concat1_apply_left {α : Type} {A B T : Nat} (a : (⟨1, ![A]⟩ : Shape).Idx → α)
    (b : (⟨1, ![B]⟩ : Shape).Idx → α) (h : Shape.Concatenates [(⟨1, ![A]⟩ : Shape), ⟨1, ![B]⟩] ⟨1, ![T]⟩ 0)
    (k : Fin T) (hk : k.val < A) :
    concatenate (⟨1, ![T]⟩ : Shape) 0 [⟨⟨1, ![A]⟩, a⟩, ⟨⟨1, ![B]⟩, b⟩] h (ix1 k) = a (ix1 ⟨k.val, hk⟩) := by
  refine concatenate_pair_apply_left (t := ⟨1, ![T]⟩) (s₁ := ⟨1, ![A]⟩) (s₂ := ⟨1, ![B]⟩) 0 a b h (ix1 k) rfl
    (ix1 ⟨k.val, hk⟩) ?_
  intro c
  match c with
  | ⟨0, _⟩ => rfl

/-- A position at or past the first extent reads the second piece at that position less the first extent. -/
theorem concat1_apply_right {α : Type} {A B T : Nat} (a : (⟨1, ![A]⟩ : Shape).Idx → α)
    (b : (⟨1, ![B]⟩ : Shape).Idx → α) (h : Shape.Concatenates [(⟨1, ![A]⟩ : Shape), ⟨1, ![B]⟩] ⟨1, ![T]⟩ 0)
    (k : Fin T) (hk : A ≤ k.val) :
    concatenate (⟨1, ![T]⟩ : Shape) 0 [⟨⟨1, ![A]⟩, a⟩, ⟨⟨1, ![B]⟩, b⟩] h (ix1 k)
      = b (ix1 ⟨k.val - A, by have := concat1_sum h; have := k.isLt; omega⟩) := by
  have hB : k.val - A < B := by have := concat1_sum h; have := k.isLt; omega
  refine concatenate_pair_apply_right (t := ⟨1, ![T]⟩) (s₁ := ⟨1, ![A]⟩) (s₂ := ⟨1, ![B]⟩) 0 a b h (ix1 k) rfl rfl
    (ix1 ⟨k.val - A, hB⟩) ?_ ?_
  · intro c hc
    exact absurd (Subsingleton.elim _ _) hc
  · show (k.val - A) + A = k.val
    omega

/-- THE RANK-1 CONCATENATE AT POSITION `k`: the first piece at `k` when `k` is below its extent `A`, else the
    second piece at `k − A`. -/
theorem concat1_apply {α : Type} {A B T : Nat} (a : (⟨1, ![A]⟩ : Shape).Idx → α)
    (b : (⟨1, ![B]⟩ : Shape).Idx → α) (h : Shape.Concatenates [(⟨1, ![A]⟩ : Shape), ⟨1, ![B]⟩] ⟨1, ![T]⟩ 0)
    (k : Fin T) :
    concatenate (⟨1, ![T]⟩ : Shape) 0 [⟨⟨1, ![A]⟩, a⟩, ⟨⟨1, ![B]⟩, b⟩] h (ix1 k)
      = if hk : k.val < A then a (ix1 ⟨k.val, hk⟩)
        else b (ix1 ⟨k.val - A, by have := concat1_sum h; have := k.isLt; omega⟩) := by
  by_cases hk : k.val < A
  · rw [dif_pos hk]; exact concat1_apply_left a b h k hk
  · rw [dif_neg hk]; exact concat1_apply_right a b h k (Nat.le_of_not_lt hk)

end LibRowOps

end
-- ==== Proof.HostChain.lean ====
/-
  The two host chains of a mean aggregation, read as whole arrays: gathering the rows named by the edges'
  source words and scatter-adding them at the edges' destination words is the per-node sum of the rows read
  by the edges landing on the node; scatter-adding ones at the destination words counts the landing edges.
-/
import proofs.«116617_j42880953484118_2_alg».proof.Proof.Spec
import proofs.«116617_j42880953484118_2_alg».proof.Proof.LibRowOps

noncomputable section

open scoped BigOperators

namespace Sage

open Idealize.ShloMosaic Idealize.ShloMosaic.ValueIdx

/-- Gather the rows of `X` at the source column, scatter-add them from zero at the destination column: the
    aggregate of `X` over the edges. -/
theorem agg_eq {C : ℕ}
    (wfS : ScatterDims.WF ⟨2, ![100000, C]⟩ ⟨2, ![1000000, 1]⟩ ⟨2, ![1000000, C]⟩ [1] [0] [0] 1)
    (wfG : GatherDims.WF ⟨2, ![100000, C]⟩ ⟨2, ![1000000, 1]⟩ ⟨2, ![1000000, C]⟩ [1] [0] [] [0] [] 1 ![1, C])
    (X z : (⟨2, ![100000, C]⟩ : Shape).Idx → EReal) (ei : EdgeArr) (dcol scol : IVec ⟨2, ![1000000, 1]⟩ 32)
    (hz : ∀ i, z i = 0) (hd : ∀ e : Fin 1000000, dcol (ix2 e 0) = ei (ix2 1 e))
    (hs : ∀ e : Fin 1000000, scol (ix2 e 0) = srcWord ei e) :
    Ideal.hostScatterAdd (LibRowOps.rowScatterDims 100000 1000000 C wfS) z dcol
        (Host.gather (LibRowOps.rowGatherDims 100000 1000000 C wfG) X scol) = aggArr X ei := by
  funext i
  obtain ⟨a, b, rfl⟩ : ∃ a b, i = ix2 a b := ⟨i 0, i 1, eq_ix2 i⟩
  rw [LibRowOps.scatterAdd_rows_apply, hz]
  show 0 + _ = 0 + ∑ e ∈ inEdges ei a, X (ix2 (srcNode ei e) b)
  refine congrArg (HAdd.hAdd (0 : EReal)) ?_
  unfold inEdges
  simp only [hd]
  refine Finset.sum_congr rfl (fun e _ => ?_)
  rw [LibRowOps.gather_rows_apply (by norm_num)]
  refine congrArg (fun n => X (ix2 n b)) (Fin.ext ?_)
  show min (scol (ix2 e 0)).toInt.toNat (100000 - 1) = min (srcWord ei e).toInt.toNat (100000 - 1)
  rw [hs]

/-- Scatter-add ones from zero at the destination column: the number of landing edges. -/
theorem deg_eq (wf : ScatterDims.WF ⟨1, ![100000]⟩ ⟨2, ![1000000, 1]⟩ ⟨1, ![1000000]⟩ [] [0] [0] 1)
    (z : (⟨1, ![100000]⟩ : Shape).Idx → EReal) (ones : (⟨1, ![1000000]⟩ : Shape).Idx → EReal) (ei : EdgeArr)
    (dcol : IVec ⟨2, ![1000000, 1]⟩ 32) (hz : ∀ i, z i = 0) (ho : ∀ i, ones i = 1)
    (hd : ∀ e : Fin 1000000, dcol (ix2 e 0) = ei (ix2 1 e)) (n : Fin 100000) :
    Ideal.hostScatterAdd (LibRowOps.vecScatterDims 100000 1000000 wf) z dcol ones (ix1 n) = deg ei n := by
  rw [LibRowOps.scatterAdd_vec_apply, hz]
  unfold deg inEdges
  simp only [hd, ho]

end Sage

end
-- ==== Proof.KernelHost.lean ====
/-
  The host operations of the two-layer program read back: the aggregate of the input rows over the edges, the
  reciprocal clamped degree as a column, the two bias vectors as rows, and the buffers the host operations
  leave as they were.
-/
import proofs.«116617_j42880953484118_2_alg».proof.Proof.Gen.KernelIdeal.Frame
import proofs.«116617_j42880953484118_2_alg».proof.Proof.Spec
import proofs.«116617_j42880953484118_2_alg».proof.Proof.LibRowOps
import proofs.«116617_j42880953484118_2_alg».proof.Proof.LibColumnLayout
import proofs.«116617_j42880953484118_2_alg».proof.Proof.HostChain
import Idealize.ShloMosaic.Lib.ValueLayout

set_option maxRecDepth 16384

noncomputable section

namespace Cert.KernelIdeal.HostReads

open Cert.KernelIdeal Cert.KernelIdeal.Gen Idealize.ShloMosaic Idealize.ShloMosaic.TcCoe Idealize.SL.Sem
open Idealize.ShloMosaic.ValueIdx

/-! ## The index columns -/

/-- Row 0 of the edge array as a vector: the source words. -/
abbrev srcVec (ei : Sage.EdgeArr) : IVec S1000000 32 :=
  shapeCast S1000000 (extractStridedSlice S1x1000000 ![0, 0] ei slices_S2x1000000_S1x1000000_0_0) shapeCasts_S1x1000000_S1000000

/-- Row 1 of the edge array as a vector: the destination words. -/
abbrev dstVec (ei : Sage.EdgeArr) : IVec S1000000 32 :=
  shapeCast S1000000 (extractStridedSlice S1x1000000 ![1, 0] ei slices_S2x1000000_S1x1000000_1_0) shapeCasts_S1x1000000_S1000000

/-- A vector of words as one column. -/
abbrev colOf (v : IVec S1000000 32) : IVec S1000000x1 32 :=
  broadcastInDim S1000000x1 ![0] bcast_S1000000_S1000000x1_0 v

/-- A vector of words, the negative ones wrapped by the node count. -/
abbrev wrapOf (v : IVec S1000000 32) : IVec S1000000 32 :=
  select (cmpi .slt v (broadcastInDim S1000000 ![] bcast_S_S1000000 (constantI S_ 32 0#32)))
    (addi v (broadcastInDim S1000000 ![] bcast_S_S1000000 (constantI S_ 32 100000#32))) v

theorem srcVec_apply (ei : Sage.EdgeArr) (e : Fin 1000000) : srcVec ei (ix1 e) = ei (ix2 (0 : Fin 2) e) := by
  refine (shapeCast_1a_a_apply _ shapeCasts_S1x1000000_S1000000 e).trans ?_
  exact extractStridedSlice_apply ![0, 0] ei slices_S2x1000000_S1x1000000_0_0 (ix2 (0 : Fin 1) e) (ix2 (0 : Fin 2) e)
    (fun a => match a with
      | ⟨0, _⟩ => by show 0 = 0 + 0; rfl
      | ⟨1, _⟩ => by show e.val = 0 + e.val; omega)

theorem dstVec_apply (ei : Sage.EdgeArr) (e : Fin 1000000) : dstVec ei (ix1 e) = ei (ix2 (1 : Fin 2) e) := by
  refine (shapeCast_1a_a_apply _ shapeCasts_S1x1000000_S1000000 e).trans ?_
  exact extractStridedSlice_apply ![1, 0] ei slices_S2x1000000_S1x1000000_1_0 (ix2 (0 : Fin 1) e) (ix2 (1 : Fin 2) e)
    (fun a => match a with
      | ⟨0, _⟩ => by show 1 = 1 + 0; rfl
      | ⟨1, _⟩ => by show e.val = 0 + e.val; omega)

theorem colOf_apply (v : IVec S1000000 32) (e : Fin 1000000) : colOf v (ix2 e (0 : Fin 1)) = v (ix1 e) :=
  broadcastInDim_apply _ bcast_S1000000_S1000000x1_0 v (ix2 e (0 : Fin 1)) (ix1 e) (fun a => match a with
    | ⟨0, _⟩ => by show e.val = if (1000000 : Nat) = 1 then 0 else e.val; rw [if_neg (by decide)])

/-- A scalar word broadcast over the edges reads the word. -/
theorem wordBcast_apply (b : BitVec 32) (i : S1000000.Idx) :
    broadcastInDim S1000000 ![] bcast_S_S1000000 (constantI S_ 32 b) i = b :=
  broadcastInDim_apply _ bcast_S_S1000000 (constantI S_ 32 b) i (fun a => a.elim0) (fun a => a.elim0)

theorem wrapOf_apply (v : IVec S1000000 32) (i : S1000000.Idx) :
    wrapOf v i = Scalar.select (IntOp.cmpi .slt (v i) 0#32) (IntOp.addi (v i) 100000#32) (v i) := by
  show Scalar.select (IntOp.cmpi .slt (v i) (broadcastInDim S1000000 ![] bcast_S_S1000000 (constantI S_ 32 0#32) i))
    (IntOp.addi (v i) (broadcastInDim S1000000 ![] bcast_S_S1000000 (constantI S_ 32 100000#32) i)) (v i) = _
  rw [wordBcast_apply, wordBcast_apply]

/-- The destination column reads the destination words. -/
theorem dstCol_apply (ei : Sage.EdgeArr) (e : Fin 1000000) : colOf (dstVec ei) (ix2 e (0 : Fin 1)) = ei (ix2 (1 : Fin 2) e) :=
  (colOf_apply _ e).trans (dstVec_apply ei e)

/-- The wrapped source column reads the wrapped source words. -/
theorem srcCol_apply (ei : Sage.EdgeArr) (e : Fin 1000000) :
    colOf (wrapOf (srcVec ei)) (ix2 e (0 : Fin 1)) = Sage.srcWord ei e := by
  refine (colOf_apply _ e).trans ?_
  rw [wrapOf_apply, srcVec_apply]
  rfl

/-! ## Float constants broadcast -/

theorem zeros_apply {S : Shape} (h : S_.BroadcastsInDim S ![]) (i : S.Idx) :
    broadcastInDim S ![] h (constant (F := Ideal) S_ .f32 0x00000000#32) i = 0 :=
  (broadcastInDim_apply _ h (constant (F := Ideal) S_ .f32 0x00000000#32) i (fun a => a.elim0) (fun a => a.elim0)).trans
    Ideal.ofBits_zero_f32

theorem ones_apply {S : Shape} (h : S_.BroadcastsInDim S ![]) (i : S.Idx) :
    broadcastInDim S ![] h (constant (F := Ideal) S_ .f32 0x3F800000#32) i = 1 :=
  (broadcastInDim_apply _ h (constant (F := Ideal) S_ .f32 0x3F800000#32) i (fun a => a.elim0) (fun a => a.elim0)).trans
    Sage.ofBits_one_f32

/-! ## The reciprocal clamped degree -/

/-- The host's quotient of two vectors, at an index. -/
theorem hostDivf_apply {s : Shape} (a b : FVec Ideal s .f32) (i : s.Idx) :
    Host.divf (F := Ideal) a b i = Ideal.div (a i) (b i) := rfl

/-- The host's reciprocal-degree chain over an edge array. -/
abbrev invTerm (ei : Sage.EdgeArr) : S100000x1.Idx → EReal :=
  shapeCast S100000x1
    (Host.divf (F := Ideal) (broadcastInDim S100000 ![] bcast_S_S100000 (constant (F := Ideal) S_ .f32 0x3F800000#32))
      (maximumf
        (Ideal.hostScatterAdd (LibRowOps.vecScatterDims 100000 1000000 scatter_S100000_S1000000x1_S1000000_n_0_0_1_wf)
          (broadcastInDim S100000 ![] bcast_S_S100000 (constant (F := Ideal) S_ .f32 0x00000000#32))
          (colOf (dstVec ei))
          (broadcastInDim S1000000 ![] bcast_S_S1000000 (constant (F := Ideal) S_ .f32 0x3F800000#32)))
        (broadcastInDim S100000 ![] bcast_S_S100000 (constant (F := Ideal) S_ .f32 0x3F800000#32))))
    shapeCasts_S100000_S100000x1

theorem invTerm_eq (ei : Sage.EdgeArr) : invTerm ei = Sage.invArr ei := by
  funext i
  obtain ⟨n, u, rfl⟩ : ∃ (n : Fin 100000) (u : Fin 1), i = ix2 n u := ⟨i 0, i 1, eq_ix2 i⟩
  refine (Cert.GatedAttn.ColumnLayout.shapeCast_a_a1_apply _ shapeCasts_S100000_S100000x1 n u).trans ?_
  refine (hostDivf_apply _ _ (ix1 n)).trans ?_
  rw [ones_apply, maximumf_apply, ones_apply,
    Sage.deg_eq scatter_S100000_S1000000x1_S1000000_n_0_0_1_wf _ _ ei _ (zeros_apply _) (ones_apply _) (dstCol_apply ei) n]
  rfl

/-! ## The launch contents behind the fold -/

variable (m : (ℓ : Loc nD τ sig) → Buf (Elt Ideal) ℓ) (ρ : Dev nD → PrngReg) (c : Dev nD)

theorem V1_v12_term : V1 m ρ c main_v12 = invTerm (m ((c.tc : Thread nD τ).loc main_arg1)) := by
  show StableHlo.after hostOps0 (W0 m ρ c) (Proc.devRef .tc main_v12) = _
  after_results_simp
  rfl

theorem V1_v12 : V1 m ρ c main_v12 = Sage.invArr (m ((c.tc : Thread nD τ).loc main_arg1)) :=
  (V1_v12_term m ρ c).trans (invTerm_eq _)

/-! ## The bias vectors as rows -/

theorem rowOf_eq {C : ℕ} (b : (⟨1, ![C]⟩ : Shape).Idx → EReal) (h : (⟨1, ![C]⟩ : Shape).ShapeCasts ⟨2, ![1, C]⟩) :
    shapeCast ⟨2, ![1, C]⟩ b h = Sage.rowArr b := by
  funext i
  obtain ⟨u, q, rfl⟩ : ∃ (u : Fin 1) (q : Fin C), i = ix2 u q := ⟨i 0, i 1, eq_ix2 i⟩
  exact shapeCast_a_1a_apply b h u q

theorem V1_v23 : V1 m ρ c main_v23 = Sage.rowArr (m ((c.tc : Thread nD τ).loc main_arg3)) := by
  have e : V1 m ρ c main_v23 = shapeCast S1x64 (m ((c.tc : Thread nD τ).loc main_arg3)) shapeCasts_S64_S1x64 := by
    show StableHlo.after hostOps0 (W0 m ρ c) (Proc.devRef .tc main_v23) = _
    after_results
    rfl
  exact e.trans (rowOf_eq _ _)

/-! ## The first layer's aggregate -/

theorem V1_v22 : V1 m ρ c main_v22
    = Sage.aggArr (m ((c.tc : Thread nD τ).loc main_arg0)) (m ((c.tc : Thread nD τ).loc main_arg1)) := by
  have e : V1 m ρ c main_v22
      = Ideal.hostScatterAdd (LibRowOps.rowScatterDims 100000 1000000 64 scatter_S100000x64_S1000000x1_S1000000x64_1_0_0_1_wf)
          (broadcastInDim S100000x64 ![] bcast_S_S100000x64 (constant (F := Ideal) S_ .f32 0x00000000#32))
          (colOf (dstVec (m ((c.tc : Thread nD τ).loc main_arg1))))
          (Host.gather (LibRowOps.rowGatherDims 100000 1000000 64 gather_S100000x64_S1000000x1_S1000000x64_1_0_n_n_0_1_164_wf)
            (m ((c.tc : Thread nD τ).loc main_arg0)) (colOf (wrapOf (srcVec (m ((c.tc : Thread nD τ).loc main_arg1)))))) := by
    show StableHlo.after hostOps0 (W0 m ρ c) (Proc.devRef .tc main_v22) = _
    after_results_simp
    rfl
  exact e.trans (Sage.agg_eq _ _ _ _ _ _ _ (zeros_apply _) (dstCol_apply _) (srcCol_apply _))

/-! ## Buffers no host operation before the first region writes -/

theorem V1_of_arg (b : Ref sig .tc)
    (hb : (hostOps0 (F := Ideal)).Forall fun op => Proc.devRef .tc b ∉ op.writes) :
    V1 m ρ c b = m ((c.tc : Thread nD τ).loc b) :=
  (StableHlo.after_of_forall_not_mem (b := Proc.devRef .tc b) _ _ (List.forall_iff_forall_mem.mp hb)).trans rfl

theorem V1_arg0 : V1 m ρ c main_arg0 = m ((c.tc : Thread nD τ).loc main_arg0) :=
  V1_of_arg m ρ c main_arg0 (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

theorem V1_arg2 : V1 m ρ c main_arg2 = m ((c.tc : Thread nD τ).loc main_arg2) :=
  V1_of_arg m ρ c main_arg2 (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

theorem V1_arg4 : V1 m ρ c main_arg4 = m ((c.tc : Thread nD τ).loc main_arg4) :=
  V1_of_arg m ρ c main_arg4 (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

theorem V1_arg5 : V1 m ρ c main_arg5 = m ((c.tc : Thread nD τ).loc main_arg5) :=
  V1_of_arg m ρ c main_arg5 (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

theorem V1_arg7 : V1 m ρ c main_arg7 = m ((c.tc : Thread nD τ).loc main_arg7) :=
  V1_of_arg m ρ c main_arg7 (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

/-! ## Between the regions -/

/-- A buffer no host operation between the regions writes holds what the first region left. -/
theorem V3_of_kept (b : Ref sig .tc)
    (hb : (hostOps1 (F := Ideal)).Forall fun op => Proc.devRef .tc b ∉ op.writes) :
    V3 m ρ c b = V2 m ρ c b :=
  StableHlo.after_of_forall_not_mem (b := Proc.devRef .tc b) _ _ (List.forall_iff_forall_mem.mp hb)

theorem V3_v24_1 : V3 m ρ c main_v24_1 = V2 m ρ c main_v24_1 :=
  V3_of_kept m ρ c main_v24_1 (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

/-- The reciprocal-degree column is an input of the first region, which leaves it as it found it. -/
theorem V3_v12 : V3 m ρ c main_v12 = V1 m ρ c main_v12 :=
  (V3_of_kept m ρ c main_v12 (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))).trans
    ((W2_arr m ρ c 1).trans (((dat0 (V1 m ρ) c).arrAt_in 1 rfl _).trans (A_eq0 (V1 m ρ) c 1)))

/-- What the first region left in a buffer that is none of its arrays and that no earlier host operation wrote:
    the launch contents. -/
theorem W2_of_launch (b : Ref sig .tc) (hne : ∀ w, Pipeline.arrRef spec0 w ≠ b)
    (hb : (hostOps0 (F := Ideal)).Forall fun op => Proc.devRef .tc b ∉ op.writes) :
    W2 m ρ c (Proc.devRef .tc b) = m ((c.tc : Thread nD τ).loc b) :=
  (W2_of_ne m ρ c b hne).trans (V1_of_arg m ρ c b hb)

theorem W2_arg6 : W2 m ρ c (Proc.devRef .tc main_arg6) = m ((c.tc : Thread nD τ).loc main_arg6) :=
  W2_of_launch m ρ c main_arg6 (by decide) (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

theorem V3_v35 : V3 m ρ c main_v35 = Sage.rowArr (m ((c.tc : Thread nD τ).loc main_arg6)) := by
  have e : V3 m ρ c main_v35 = shapeCast S1x32 (W2 m ρ c (Proc.devRef .tc main_arg6)) shapeCasts_S32_S1x32 := by
    show StableHlo.after hostOps1 (W2 m ρ c) (Proc.devRef .tc main_v35) = _
    after_results
    rfl
  rw [W2_arg6] at e
  exact e.trans (rowOf_eq _ _)

/-- The source and destination word vectors, written before the first region, as the first region left them. -/
theorem W2_v1 : W2 m ρ c (Proc.devRef .tc main_v1) = srcVec (m ((c.tc : Thread nD τ).loc main_arg1)) := by
  refine (W2_of_ne m ρ c main_v1 (by decide)).trans ?_
  show StableHlo.after hostOps0 (W0 m ρ c) (Proc.devRef .tc main_v1) = _
  after_results
  rfl

theorem W2_v3 : W2 m ρ c (Proc.devRef .tc main_v3) = dstVec (m ((c.tc : Thread nD τ).loc main_arg1)) := by
  refine (W2_of_ne m ρ c main_v3 (by decide)).trans ?_
  show StableHlo.after hostOps0 (W0 m ρ c) (Proc.devRef .tc main_v3) = _
  after_results
  rfl

/-! ## The second layer's aggregate -/

theorem V3_v34 : V3 m ρ c main_v34
    = Sage.aggArr (V2 m ρ c main_v24_0) (m ((c.tc : Thread nD τ).loc main_arg1)) := by
  have e : V3 m ρ c main_v34
      = Ideal.hostScatterAdd (LibRowOps.rowScatterDims 100000 1000000 32 scatter_S100000x32_S1000000x1_S1000000x32_1_0_0_1_wf)
          (broadcastInDim S100000x32 ![] bcast_S_S100000x32 (constant (F := Ideal) S_ .f32 0x00000000#32))
          (colOf (W2 m ρ c (Proc.devRef .tc main_v3)))
          (Host.gather (LibRowOps.rowGatherDims 100000 1000000 32 gather_S100000x32_S1000000x1_S1000000x32_1_0_n_n_0_1_132_wf)
            (V2 m ρ c main_v24_0) (colOf (wrapOf (W2 m ρ c (Proc.devRef .tc main_v1))))) := by
    show StableHlo.after hostOps1 (W2 m ρ c) (Proc.devRef .tc main_v34) = _
    after_results_simp
    rfl
  rw [W2_v3, W2_v1] at e
  exact e.trans (Sage.agg_eq _ _ _ _ _ _ _ (zeros_apply _) (dstCol_apply _) (srcCol_apply _))

end Cert.KernelIdeal.HostReads

end
-- ==== Proof.KernelValue.lean ====
/-
  The idealized kernel's result array as one function of the argument arrays. The result is the second region's
  output array: the aggregate of the projected hidden rows scaled by the reciprocal degree column, plus the bias
  row, plus the own-row projection; the projected hidden rows are the first region's two output arrays; and the
  aggregates, the reciprocal degree column and the bias rows are what the host operations before each region
  compute from the arguments.
-/
import proofs.«116617_j42880953484118_2_alg».proof.Proof.KernelRun
import proofs.«116617_j42880953484118_2_alg».proof.Proof.Region0
import proofs.«116617_j42880953484118_2_alg».proof.Proof.Region1
import proofs.«116617_j42880953484118_2_alg».proof.Proof.KernelHost

noncomputable section

open Idealize.ShloMosaic Idealize.ShloMosaic.TcCoe Idealize.SL.Sem

/-! ## The idealized kernel's result array is the project-then-aggregate composition of the arguments -/

namespace Cert.KernelIdeal.KernelValue

open Cert.KernelIdeal Cert.KernelIdeal.Gen

variable (m : (ℓ : Loc nD τ sig) → Buf (Elt Ideal) ℓ) (ρ : Dev nD → PrngReg) (c : Dev nD)

/-- What the first region leaves in its first output array, from the launch memory. -/
theorem g_eq : V2 m ρ c main_v24_0
    = Sage.projArr (Sage.hK (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)))
        (m ((c.tc : Thread nD τ).loc main_arg5)) := by
  show W2 m ρ c (Proc.devRef .tc main_v24_0) = _
  rw [show W2 m ρ c (Proc.devRef .tc main_v24_0) = (dat0 (F := Ideal) (V1 m ρ) c).arrAt 8 cfg0.N from W2_arr m ρ c 8,
    Cert.KernelIdeal.Region0.final8, HostReads.V1_v22, HostReads.V1_v12, HostReads.V1_v23, HostReads.V1_arg0,
    HostReads.V1_arg2, HostReads.V1_arg4, HostReads.V1_arg5]
  rfl

/-- What the first region leaves in its second output array, from the launch memory. -/
theorem r_eq : V2 m ρ c main_v24_1
    = Sage.projArr (Sage.hK (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)))
        (m ((c.tc : Thread nD τ).loc main_arg7)) := by
  show W2 m ρ c (Proc.devRef .tc main_v24_1) = _
  rw [show W2 m ρ c (Proc.devRef .tc main_v24_1) = (dat0 (F := Ideal) (V1 m ρ) c).arrAt 9 cfg0.N from W2_arr m ρ c 9,
    Cert.KernelIdeal.Region0.final9, HostReads.V1_v22, HostReads.V1_v12, HostReads.V1_v23, HostReads.V1_arg0,
    HostReads.V1_arg2, HostReads.V1_arg4, HostReads.V1_arg7]
  rfl

/-- The result array at the last segment boundary is the project-then-aggregate composition of the arguments. -/
theorem result_eq : W4 m ρ c (Proc.devRef .tc main_v36)
    = Sage.GK (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := by
  rw [Cert.KernelIdeal.NamedRun.W4_result, Cert.KernelIdeal.Region1.final4, HostReads.V3_v34, HostReads.V3_v12, HostReads.V3_v24_1,
    HostReads.V3_v35, HostReads.V1_v12, g_eq, r_eq]
  rfl

end Cert.KernelIdeal.KernelValue

end
-- ==== Proof.RefValue.lean ====
/-
  The reference program's result, read stage by stage, is the composition that aggregates the hidden rows,
  divides by the clamped degree, projects the mean and adds the bias and the own-row projection.
-/
import proofs.«116617_j42880953484118_2_alg».proof.Proof.Gen.ReferenceIdeal.Read
import proofs.«116617_j42880953484118_2_alg».proof.Proof.Spec
import proofs.«116617_j42880953484118_2_alg».proof.Proof.HostChain

noncomputable section

open scoped BigOperators

namespace Cert.ReferenceIdeal.RefValue

open Cert.ReferenceIdeal Cert.ReferenceIdeal.Read Idealize.ShloMosaic Idealize.ShloMosaic.ValueIdx

/-! ## The index columns -/

/-- The flattened second row of the edge array, as a column: at `(e, 0)` the destination word of edge `e`. -/
theorem dst_index (e : Fin 1000000) :
    idx_main_v2 (idx_main_v3 (idx_main_v12 (ix2 e 0))) = ix2 1 e :=
  funext fun a => Fin.ext (by
    match a with
    | ⟨0, _⟩ => rfl
    | ⟨1, _⟩ => exact Nat.mod_eq_of_lt e.isLt)

theorem dstCol12 (x1 : (⟨S2x1000000, .i32⟩ : BufTy).Contents (Elt Ideal)) (e : Fin 1000000) :
    val_main_v12 (F := Ideal) x1 (ix2 e 0) = x1 (ix2 1 e) := by
  rw [val_main_v12_apply, val_main_v3_apply, val_main_v2_apply]
  exact congrArg x1 (dst_index e)

theorem dstCol16 (x1 : (⟨S2x1000000, .i32⟩ : BufTy).Contents (Elt Ideal)) (e : Fin 1000000) :
    val_main_v16 (F := Ideal) x1 (ix2 e 0) = x1 (ix2 1 e) := by
  rw [val_main_v16_apply, val_main_v3_apply, val_main_v2_apply]
  exact congrArg x1 (dst_index e)

theorem dstCol38 (x1 : (⟨S2x1000000, .i32⟩ : BufTy).Contents (Elt Ideal)) (e : Fin 1000000) :
    val_main_v38 (F := Ideal) x1 (ix2 e 0) = x1 (ix2 1 e) := by
  rw [val_main_v38_apply, val_main_v3_apply, val_main_v2_apply]
  exact congrArg x1 (dst_index e)

theorem dstCol42 (x1 : (⟨S2x1000000, .i32⟩ : BufTy).Contents (Elt Ideal)) (e : Fin 1000000) :
    val_main_v42 (F := Ideal) x1 (ix2 e 0) = x1 (ix2 1 e) := by
  rw [val_main_v42_apply, val_main_v3_apply, val_main_v2_apply]
  exact congrArg x1 (dst_index e)

/-- The flattened first row of the edge array read at `e`. -/
theorem src_index (e : Fin 1000000) : idx_main_v0 (idx_main_v1 (idx_main_v9 (ix2 e 0))) = ix2 0 e :=
  funext fun a => Fin.ext (by
    match a with
    | ⟨0, _⟩ => rfl
    | ⟨1, _⟩ => exact Nat.mod_eq_of_lt e.isLt)

/-- The source column of the first layer: at `(e, 0)` the wrapped source word of edge `e`. -/
theorem srcCol9 (x1 : (⟨S2x1000000, .i32⟩ : BufTy).Contents (Elt Ideal)) (e : Fin 1000000) :
    val_main_v9 (F := Ideal) x1 (ix2 e 0) = Sage.srcWord x1 e := by
  rw [val_main_v9_apply, val_main_v8_apply, val_main_v5_apply, val_main_v7_apply, val_main_v4_apply,
    val_main_v6_apply, val_main_c_apply, val_main_c_0_apply, val_main_v1_apply, val_main_v0_apply, src_index]
  rfl

/-- The source column of the second layer: the same wrapped source words. -/
theorem srcCol35 (x1 : (⟨S2x1000000, .i32⟩ : BufTy).Contents (Elt Ideal)) (e : Fin 1000000) :
    val_main_v35 (F := Ideal) x1 (ix2 e 0) = Sage.srcWord x1 e := by
  rw [val_main_v35_apply, val_main_v34_apply, val_main_v31_apply, val_main_v33_apply, val_main_v30_apply,
    val_main_v32_apply, val_main_c_4_apply, val_main_c_5_apply, val_main_v1_apply, val_main_v0_apply]
  show Scalar.select (IntOp.cmpi .slt (x1 (idx_main_v0 (idx_main_v1 (idx_main_v9 (ix2 e 0))))) 0#32)
    (IntOp.addi (x1 (idx_main_v0 (idx_main_v1 (idx_main_v9 (ix2 e 0))))) 100000#32)
    (x1 (idx_main_v0 (idx_main_v1 (idx_main_v9 (ix2 e 0))))) = _
  rw [src_index]
  rfl

/-! ## The constant arrays -/

theorem zero11 (i : S100000x64.Idx) : val_main_v11 (F := Ideal) i = 0 := by
  rw [val_main_v11_apply, val_main_cst_apply]; exact Ideal.ofBits_zero_f32
theorem zero15 (i : S100000.Idx) : val_main_v15 (F := Ideal) i = 0 := by
  rw [val_main_v15_apply, val_main_cst_2_apply]; exact Ideal.ofBits_zero_f32
theorem zero37 (i : S100000x64.Idx) : val_main_v37 (F := Ideal) i = 0 := by
  rw [val_main_v37_apply, val_main_cst_6_apply]; exact Ideal.ofBits_zero_f32
theorem zero41 (i : S100000.Idx) : val_main_v41 (F := Ideal) i = 0 := by
  rw [val_main_v41_apply, val_main_cst_8_apply]; exact Ideal.ofBits_zero_f32
theorem zeroRelu (i : S100000x64.Idx) : val_main_call0_v0 (F := Ideal) i = 0 := by
  rw [val_main_call0_v0_apply, val_main_call0_cst_apply]; exact Ideal.ofBits_zero_f32
theorem one14 (i : S1000000.Idx) : val_main_v14 (F := Ideal) i = 1 := by
  rw [val_main_v14_apply, val_main_cst_1_apply]; exact Sage.ofBits_one_f32
theorem one18 (i : S100000.Idx) : val_main_v18 (F := Ideal) i = 1 := by
  rw [val_main_v18_apply, val_main_cst_3_apply]; exact Sage.ofBits_one_f32
theorem one40 (i : S1000000.Idx) : val_main_v40 (F := Ideal) i = 1 := by
  rw [val_main_v40_apply, val_main_cst_7_apply]; exact Sage.ofBits_one_f32
theorem one44 (i : S100000.Idx) : val_main_v44 (F := Ideal) i = 1 := by
  rw [val_main_v44_apply, val_main_cst_9_apply]; exact Sage.ofBits_one_f32

/-! ## The dimension numbers

The program's scatter and gather records are the row scatter-add, the row gather and the element scatter-add. -/

/-- The program's row scatter-add at the ideal instance is the exact sum over the row dimension numbers. -/
theorem scatterRows_eq (z : FVec Ideal S100000x64 .f32) (dcol : IVec S1000000x1 32) (upd : FVec Ideal S1000000x64 .f32) :
    Host.scatterAdd (F := Ideal) scatter_S100000x64_S1000000x1_S1000000x64_1_0_0_1 z dcol upd
      = Ideal.hostScatterAdd (LibRowOps.rowScatterDims 100000 1000000 64 Facts₀.scatter_S100000x64_S1000000x1_S1000000x64_1_0_0_1_wf) z dcol upd := rfl

/-- The program's gather is the row gather. -/
theorem gatherRows_eq (X : FVec Ideal S100000x64 .f32) (scol : IVec S1000000x1 32) :
    Host.gather gather_S100000x64_S1000000x1_S1000000x64_1_0_n_n_0_1_164 X scol
      = Host.gather (LibRowOps.rowGatherDims 100000 1000000 64 Facts₀.gather_S100000x64_S1000000x1_S1000000x64_1_0_n_n_0_1_164_wf) X scol := rfl

/-- The program's element scatter-add at the ideal instance is the exact sum over the element dimension numbers. -/
theorem scatterVec_eq (z : FVec Ideal S100000 .f32) (dcol : IVec S1000000x1 32) (upd : FVec Ideal S1000000 .f32) :
    Host.scatterAdd (F := Ideal) scatter_S100000_S1000000x1_S1000000_n_0_0_1 z dcol upd
      = Ideal.hostScatterAdd (LibRowOps.vecScatterDims 100000 1000000 Facts₀.scatter_S100000_S1000000x1_S1000000_n_0_0_1_wf) z dcol upd := rfl

/-! ## The first layer's aggregate and degree -/

/-- The first scatter-add of gathered rows is the aggregate of the node features. -/
theorem v13_eq (x0 : (⟨S100000x64, .f32⟩ : BufTy).Contents (Elt Ideal)) (x1 : (⟨S2x1000000, .i32⟩ : BufTy).Contents (Elt Ideal)) :
    val_main_v13 (F := Ideal) x0 x1 = Sage.aggArr x0 x1 := by
  unfold val_main_v13 val_main_v10
  refine (scatterRows_eq _ _ _).trans ?_
  refine (congrArg _ (gatherRows_eq _ _)).trans ?_
  exact Sage.agg_eq _ _ x0 (val_main_v11 (F := Ideal)) x1 (val_main_v12 (F := Ideal) x1) (val_main_v9 (F := Ideal) x1)
    zero11 (dstCol12 x1) (srcCol9 x1)

/-- The first scatter-add of ones counts the landing edges. -/
theorem v17_eq (x1 : (⟨S2x1000000, .i32⟩ : BufTy).Contents (Elt Ideal)) (n : Fin 100000) :
    val_main_v17 (F := Ideal) x1 (ix1 n) = Sage.deg x1 n := by
  unfold val_main_v17
  refine (congrFun (scatterVec_eq _ _ _) (ix1 n)).trans ?_
  exact Sage.deg_eq _ (val_main_v15 (F := Ideal)) (val_main_v14 (F := Ideal)) x1 (val_main_v16 (F := Ideal) x1)
    zero15 one14 (dstCol16 x1) n

/-- The clamped degree. -/
theorem v19_eq (x1 : (⟨S2x1000000, .i32⟩ : BufTy).Contents (Elt Ideal)) (n : Fin 100000) :
    val_main_v19 (F := Ideal) x1 (ix1 n) = Sage.degc x1 n := by
  rw [val_main_v19_apply, v17_eq, one18]
  rfl

/-! ## The first layer's hidden rows -/

/-- The clamped degree broadcast along the rows. -/
theorem v21_eq (x1 : (⟨S2x1000000, .i32⟩ : BufTy).Contents (Elt Ideal)) (n : Fin 100000) (k : Fin 64) :
    val_main_v21 (F := Ideal) x1 (ix2 n k) = Sage.degc x1 n := by
  have h : idx_main_v20 (idx_main_v21 (ix2 n k)) = ix1 n :=
    funext fun a => Fin.ext (by match a with | ⟨0, _⟩ => rfl)
  rw [val_main_v21_apply, val_main_v20_apply, h, v19_eq]

/-- The mean: the aggregate divided by the clamped degree. -/
theorem v22_eq (x0 : (⟨S100000x64, .f32⟩ : BufTy).Contents (Elt Ideal)) (x1 : (⟨S2x1000000, .i32⟩ : BufTy).Contents (Elt Ideal)) (n : Fin 100000) (k : Fin 64) :
    val_main_v22 (F := Ideal) x0 x1 (ix2 n k) = Ideal.div (Sage.aggArr x0 x1 (ix2 n k)) (Sage.degc x1 n) := by
  rw [val_main_v22_apply, v13_eq, v21_eq]
  rfl

theorem lidx23 (n : Fin 100000) (c k : Fin 64) : lidx_main_v23 (ix2 n c) k = ix2 n k :=
  funext fun a => Fin.ext (by match a with | ⟨0, _⟩ => rfl | ⟨1, _⟩ => rfl)
theorem ridx23 (n : Fin 100000) (c k : Fin 64) : ridx_main_v23 (ix2 n c) k = ix2 k c :=
  funext fun a => Fin.ext (by match a with | ⟨0, _⟩ => rfl | ⟨1, _⟩ => rfl)
theorem lidx27 (n : Fin 100000) (c k : Fin 64) : lidx_main_v27 (ix2 n c) k = ix2 n k :=
  funext fun a => Fin.ext (by match a with | ⟨0, _⟩ => rfl | ⟨1, _⟩ => rfl)
theorem ridx27 (n : Fin 100000) (c k : Fin 64) : ridx_main_v27 (ix2 n c) k = ix2 k c :=
  funext fun a => Fin.ext (by match a with | ⟨0, _⟩ => rfl | ⟨1, _⟩ => rfl)

/-- The mean times the first weight matrix. -/
theorem v23_eq (x0 : (⟨S100000x64, .f32⟩ : BufTy).Contents (Elt Ideal)) (x1 : (⟨S2x1000000, .i32⟩ : BufTy).Contents (Elt Ideal)) (x2 : (⟨S64x64, .f32⟩ : BufTy).Contents (Elt Ideal)) (n : Fin 100000) (c : Fin 64) :
    val_main_v23 (F := Ideal) x0 x1 x2 (ix2 n c)
      = ∑ k : Fin 64, Ideal.div (Sage.aggArr x0 x1 (ix2 n k)) (Sage.degc x1 n) * x2 (ix2 k c) := by
  rw [val_main_v23_apply]
  refine Finset.sum_congr rfl fun k _ => ?_
  rw [lidx23, ridx23, v22_eq]

/-- The bias row broadcast along the nodes. -/
theorem v25_eq (x3 : (⟨S64, .f32⟩ : BufTy).Contents (Elt Ideal)) (n : Fin 100000) (c : Fin 64) :
    val_main_v25 (F := Ideal) x3 (ix2 n c) = x3 (ix1 c) := by
  rw [val_main_v25_apply, val_main_v24_apply]
  exact congrArg x3 (funext fun a => Fin.ext (by match a with | ⟨0, _⟩ => rfl))

/-- The node's own row times the second weight matrix. -/
theorem v27_eq (x0 : (⟨S100000x64, .f32⟩ : BufTy).Contents (Elt Ideal)) (x4 : (⟨S64x64, .f32⟩ : BufTy).Contents (Elt Ideal)) (n : Fin 100000) (c : Fin 64) :
    val_main_v27 (F := Ideal) x0 x4 (ix2 n c) = ∑ k : Fin 64, x0 (ix2 n k) * x4 (ix2 k c) := by
  rw [val_main_v27_apply]
  refine Finset.sum_congr rfl fun k _ => ?_
  rw [lidx27, ridx27]

/-- The hidden rows at a node and a column. -/
theorem v29_at (x0 : (⟨S100000x64, .f32⟩ : BufTy).Contents (Elt Ideal)) (x1 : (⟨S2x1000000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (n : Fin 100000) (c : Fin 64) :
    val_main_v29 (F := Ideal) x0 x1 x2 x3 x4 (ix2 n c) = Sage.hR x0 x1 x2 x3 x4 n c := by
  rw [val_main_v29_apply, val_main_v28_apply, val_main_v26_apply, v23_eq, v25_eq, v27_eq, zeroRelu]
  rfl

/-- The hidden rows as an array. -/
theorem v29_eq (x0 : (⟨S100000x64, .f32⟩ : BufTy).Contents (Elt Ideal)) (x1 : (⟨S2x1000000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v29 (F := Ideal) x0 x1 x2 x3 x4 = Sage.arrOf (Sage.hR x0 x1 x2 x3 x4) := by
  funext i
  obtain ⟨n, c, rfl⟩ : ∃ (n : Fin 100000) (c : Fin 64), i = ix2 n c := ⟨i 0, i 1, eq_ix2 i⟩
  exact v29_at x0 x1 x2 x3 x4 n c

/-! ## The second layer's aggregate and degree -/

/-- The second scatter-add of gathered rows is the aggregate of the hidden rows. -/
theorem v39_eq (x0 : (⟨S100000x64, .f32⟩ : BufTy).Contents (Elt Ideal)) (x1 : (⟨S2x1000000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v39 (F := Ideal) x0 x1 x2 x3 x4 = Sage.aggArr (Sage.arrOf (Sage.hR x0 x1 x2 x3 x4)) x1 := by
  unfold val_main_v39 val_main_v36
  rw [v29_eq]
  refine (scatterRows_eq _ _ _).trans ?_
  refine (congrArg _ (gatherRows_eq _ _)).trans ?_
  exact Sage.agg_eq _ _ (Sage.arrOf (Sage.hR x0 x1 x2 x3 x4)) (val_main_v37 (F := Ideal)) x1 (val_main_v38 (F := Ideal) x1)
    (val_main_v35 (F := Ideal) x1) zero37 (dstCol38 x1) (srcCol35 x1)

/-- The second scatter-add of ones counts the landing edges again. -/
theorem v43_eq (x1 : (⟨S2x1000000, .i32⟩ : BufTy).Contents (Elt Ideal)) (n : Fin 100000) :
    val_main_v43 (F := Ideal) x1 (ix1 n) = Sage.deg x1 n := by
  unfold val_main_v43
  refine (congrFun (scatterVec_eq _ _ _) (ix1 n)).trans ?_
  exact Sage.deg_eq _ (val_main_v41 (F := Ideal)) (val_main_v40 (F := Ideal)) x1 (val_main_v42 (F := Ideal) x1)
    zero41 one40 (dstCol42 x1) n

theorem v45_eq (x1 : (⟨S2x1000000, .i32⟩ : BufTy).Contents (Elt Ideal)) (n : Fin 100000) :
    val_main_v45 (F := Ideal) x1 (ix1 n) = Sage.degc x1 n := by
  rw [val_main_v45_apply, v43_eq, one44]
  rfl

theorem v47_eq (x1 : (⟨S2x1000000, .i32⟩ : BufTy).Contents (Elt Ideal)) (n : Fin 100000) (k : Fin 64) :
    val_main_v47 (F := Ideal) x1 (ix2 n k) = Sage.degc x1 n := by
  have h : idx_main_v46 (idx_main_v47 (ix2 n k)) = ix1 n :=
    funext fun a => Fin.ext (by match a with | ⟨0, _⟩ => rfl)
  rw [val_main_v47_apply, val_main_v46_apply, h, v45_eq]

/-- The second mean: the aggregate of the hidden rows divided by the clamped degree. -/
theorem v48_eq (x0 : (⟨S100000x64, .f32⟩ : BufTy).Contents (Elt Ideal)) (x1 : (⟨S2x1000000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (n : Fin 100000) (k : Fin 64) :
    val_main_v48 (F := Ideal) x0 x1 x2 x3 x4 (ix2 n k)
      = Ideal.div (Sage.aggArr (Sage.arrOf (Sage.hR x0 x1 x2 x3 x4)) x1 (ix2 n k)) (Sage.degc x1 n) := by
  rw [val_main_v48_apply, v39_eq, v47_eq]
  rfl

/-! ## The projection -/

theorem lidx49 (n : Fin 100000) (j : Fin 32) (k : Fin 64) : lidx_main_v49 (ix2 n j) k = ix2 n k :=
  funext fun a => Fin.ext (by match a with | ⟨0, _⟩ => rfl | ⟨1, _⟩ => rfl)
theorem ridx49 (n : Fin 100000) (j : Fin 32) (k : Fin 64) : ridx_main_v49 (ix2 n j) k = ix2 k j :=
  funext fun a => Fin.ext (by match a with | ⟨0, _⟩ => rfl | ⟨1, _⟩ => rfl)
theorem lidx53 (n : Fin 100000) (j : Fin 32) (k : Fin 64) : lidx_main_v53 (ix2 n j) k = ix2 n k :=
  funext fun a => Fin.ext (by match a with | ⟨0, _⟩ => rfl | ⟨1, _⟩ => rfl)
theorem ridx53 (n : Fin 100000) (j : Fin 32) (k : Fin 64) : ridx_main_v53 (ix2 n j) k = ix2 k j :=
  funext fun a => Fin.ext (by match a with | ⟨0, _⟩ => rfl | ⟨1, _⟩ => rfl)

/-- The second mean times the third weight matrix. -/
theorem v49_eq (x0 : (⟨S100000x64, .f32⟩ : BufTy).Contents (Elt Ideal)) (x1 : (⟨S2x1000000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x32, .f32⟩ : BufTy).Contents (Elt Ideal)) (n : Fin 100000) (j : Fin 32) :
    val_main_v49 (F := Ideal) x0 x1 x2 x3 x4 x5 (ix2 n j)
      = ∑ k : Fin 64, Ideal.div (Sage.aggArr (Sage.arrOf (Sage.hR x0 x1 x2 x3 x4)) x1 (ix2 n k)) (Sage.degc x1 n)
          * x5 (ix2 k j) := by
  rw [val_main_v49_apply]
  refine Finset.sum_congr rfl fun k _ => ?_
  rw [lidx49, ridx49, v48_eq]

/-- The second bias row broadcast along the nodes. -/
theorem v51_eq (x6 : (⟨S32, .f32⟩ : BufTy).Contents (Elt Ideal)) (n : Fin 100000) (j : Fin 32) :
    val_main_v51 (F := Ideal) x6 (ix2 n j) = x6 (ix1 j) := by
  rw [val_main_v51_apply, val_main_v50_apply]
  exact congrArg x6 (funext fun a => Fin.ext (by match a with | ⟨0, _⟩ => rfl))

/-- The hidden rows times the fourth weight matrix. -/
theorem v53_eq (x0 : (⟨S100000x64, .f32⟩ : BufTy).Contents (Elt Ideal)) (x1 : (⟨S2x1000000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x7 : (⟨S64x32, .f32⟩ : BufTy).Contents (Elt Ideal)) (n : Fin 100000) (j : Fin 32) :
    val_main_v53 (F := Ideal) x0 x1 x2 x3 x4 x7 (ix2 n j)
      = ∑ k : Fin 64, Sage.hR x0 x1 x2 x3 x4 n k * x7 (ix2 k j) := by
  rw [val_main_v53_apply]
  refine Finset.sum_congr rfl fun k _ => ?_
  rw [lidx53, ridx53, v29_at]

/-! ## The reference's result -/

/-- The reference computes the composition that aggregates the hidden rows first and projects the mean. -/
theorem ref_eq (x0 : (⟨S100000x64, .f32⟩ : BufTy).Contents (Elt Ideal)) (x1 : (⟨S2x1000000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64x32, .f32⟩ : BufTy).Contents (Elt Ideal))
    (x6 : (⟨S32, .f32⟩ : BufTy).Contents (Elt Ideal)) (x7 : (⟨S64x32, .f32⟩ : BufTy).Contents (Elt Ideal)) :
    Cert.ReferenceIdeal.Read.val_main_v54 (F := Ideal) x0 x1 x2 x3 x4 x5 x6 x7 = Sage.GR x0 x1 x2 x3 x4 x5 x6 x7 := by
  funext i
  obtain ⟨n, j, rfl⟩ : ∃ (n : Fin 100000) (j : Fin 32), i = ix2 n j := ⟨i 0, i 1, eq_ix2 i⟩
  rw [val_main_v54_apply, val_main_v52_apply, v49_eq, v51_eq, v53_eq]
  unfold Sage.GR
  generalize Sage.hR x0 x1 x2 x3 x4 = H
  rfl

end Cert.ReferenceIdeal.RefValue

end
-- ==== Proof.lean ====
/-
  A two-layer mean-aggregating graph convolution over 100000 nodes and 1000000 edges, computed two ways.

  The reference aggregates each node's incoming source rows, divides by the clamped in-degree, applies the first
  layer (mean · W1l + b1 + x · W1r, clamped below at zero), aggregates and divides the hidden rows again, and applies
  the second layer (mean · W2l + b2 + h · W2r). The kernel computes the reciprocal of the clamped degree once; its
  first pallas region computes the hidden rows from the aggregate scaled by that reciprocal and immediately projects
  them by W2l and by W2r; the host aggregates the 32-wide projections; the second region scales the aggregate by the
  reciprocal and adds b2 and the own-row projection.

  At the ideal instance both are one function of the arguments when the float arguments are finite (the
  precondition): dividing by a nonzero real degree is multiplying by its reciprocal at every extended real, so the
  hidden rows agree outright; the hidden rows are then real numbers, and among real numbers the aggregate of the
  projected rows, scaled, is the projection of the aggregated, scaled rows — a finite double sum in the other order
  (module Algebra). The kernel's value is read off its run (modules KernelRun, Region0, Region1, KernelHost,
  KernelValue), the reference's off its generated run and stage lemmas (module RefValue); the edge bookkeeping — which
  edges land on a node, which node an edge reads — is shared by both sides (modules Spec, HostChain). The three frames
  are the generated ones; the idealization rewrote nothing, so it is preserved trivially.
-/
import proofs.«116617_j42880953484118_2_alg».proof.Defs
import proofs.«116617_j42880953484118_2_alg».proof.Proof.Gen.Kernel
import proofs.«116617_j42880953484118_2_alg».proof.Proof.Gen.Kernel.Skeleton
import proofs.«116617_j42880953484118_2_alg».proof.Proof.Gen.Kernel.Launch
import proofs.«116617_j42880953484118_2_alg».proof.Proof.Gen.Kernel.Points
import proofs.«116617_j42880953484118_2_alg».proof.Proof.Gen.Kernel.Frame
import proofs.«116617_j42880953484118_2_alg».proof.Proof.Gen.KernelIdeal
import proofs.«116617_j42880953484118_2_alg».proof.Proof.Gen.KernelIdeal.Skeleton
import proofs.«116617_j42880953484118_2_alg».proof.Proof.Gen.KernelIdeal.Launch
import proofs.«116617_j42880953484118_2_alg».proof.Proof.Gen.KernelIdeal.Points
import proofs.«116617_j42880953484118_2_alg».proof.Proof.Gen.KernelIdeal.Frame
import proofs.«116617_j42880953484118_2_alg».proof.Proof.Gen.ReferenceIdeal
import proofs.«116617_j42880953484118_2_alg».proof.Proof.Gen.Pre_finite_inputs
import proofs.«116617_j42880953484118_2_alg».proof.Proof.Gen.ReferenceIdeal.Read
import proofs.«116617_j42880953484118_2_alg».proof.Proof.Spec
import proofs.«116617_j42880953484118_2_alg».proof.Proof.Algebra
import proofs.«116617_j42880953484118_2_alg».proof.Proof.Finite
import proofs.«116617_j42880953484118_2_alg».proof.Proof.KernelRun
import proofs.«116617_j42880953484118_2_alg».proof.Proof.KernelValue
import proofs.«116617_j42880953484118_2_alg».proof.Proof.RefValue
import Idealize.ShloMosaic.Adequacy
import Idealize.ShloMosaic.Init

noncomputable section

open Idealize.ShloMosaic Idealize.ShloMosaic.TcCoe Idealize.SL.Sem

namespace Cert.Proof.Claims

/-- The kernel as printed runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, both idealized programs end with the project-then-aggregate
    composition of the kernel's arguments in their result arrays: the kernel by its value, the reference by its value
    (the aggregate-then-project composition), the arguments' agreement, and — the float arguments being real numbers
    under the precondition — the equality of the two compositions. -/
theorem algebraic : Cert.algebraic_KernelIdeal_ReferenceIdeal := by
  intro m ρ m' ρ' hpre hagree
  refine ⟨fun c => Sage.GK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KernelValue.result_eq m ρ c), (h c).2⟩)
      (Cert.KernelIdeal.NamedRun.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h2, h3, h4, h5⟩ := Cert.Pre_finite_inputs.Finite.reals_of_pre _ _ _ _ _ _ _ _ (hpre c)
    rw [Cert.ReferenceIdeal.Read.val_main_v54_eq, Cert.ReferenceIdeal.RefValue.ref_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]
    exact Sage.GR_eq_GK _ _ _ _ _ _ _ _ h0 h2 h3 h4 h5

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
